-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S512x3 .f32 .bf16
  ∧ IdealRules.truncf_extf.Statement Cert.KernelIdeal.S3x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x3 : Shape := ⟨3, ![1, 4096, 3]⟩
abbrev S_ : Shape := ⟨0, ![]⟩

class Facts : Prop where
  bcast_S_S1x4096x3 : S_.BroadcastsInDim S1x4096x3 (![] : Fin 0 → Fin S1x4096x3.rank)
  reducesTo_S1x4096x3_S_d0_1_2 : S1x4096x3.ReducesTo [0, 1, 2] S_
  h_S_ : 0 < S_.numel

variable [Facts]

def fn {F : FTy → Type} [FloatOps F] (main_arg0 : FVec F S1x4096x3 .f32) (main_arg1 : FVec F S1x4096x3 .f32) : IVec S_ 1 :=
  let main_v0 : FVec F S1x4096x3 .f32 := Host.absf main_arg0
  let main_cst : FVec F S_ .f32 := constant S_ .f32 0x7F800000#32
  let main_v1 : FVec F S1x4096x3 .f32 := broadcastInDim S1x4096x3 ![] bcast_S_S1x4096x3 main_cst
  let main_v2 : IVec S1x4096x3 1 := cmpf .olt main_v0 main_v1
  let main_c : IVec S_ 1 := constantI S_ 1 1#1
  let main_v3 : IVec S_ 1 := (fun x v => Host.reduce IntOp.andi x v reducesTo_S1x4096x3_S_d0_1_2 h_S_) main_v2 main_c
  let main_v4 : FVec F S1x4096x3 .f32 := Host.absf main_arg1
  let main_cst_0 : FVec F S_ .f32 := constant S_ .f32 0x7F800000#32
  let main_v5 : FVec F S1x4096x3 .f32 := broadcastInDim S1x4096x3 ![] bcast_S_S1x4096x3 main_cst_0
  let main_v6 : IVec S1x4096x3 1 := cmpf .olt main_v4 main_v5
  let main_c_1 : IVec S_ 1 := constantI S_ 1 1#1
  let main_v7 : IVec S_ 1 := (fun x v => Host.reduce IntOp.andi x v reducesTo_S1x4096x3_S_d0_1_2 h_S_) main_v6 main_c_1
  let main_v8 : IVec S_ 1 := andi main_v3 main_v7
  main_v8
-- ==== Kernel.lean ====
abbrev S1x4096x3 : Shape := ⟨3, ![1, 4096, 3]⟩
abbrev S4096x3 : Shape := ⟨2, ![4096, 3]⟩
abbrev S3x4096 : Shape := ⟨2, ![3, 4096]⟩
abbrev S4096x1 : Shape := ⟨2, ![4096, 1]⟩
abbrev S1x4096 : Shape := ⟨2, ![1, 4096]⟩
abbrev S512x3 : Shape := ⟨2, ![512, 3]⟩
abbrev S512x1 : Shape := ⟨2, ![512, 1]⟩
abbrev S512x4096 : Shape := ⟨2, ![512, 4096]⟩
abbrev S512 : Shape := ⟨1, ![512]⟩
abbrev S4096 : Shape := ⟨1, ![4096]⟩

abbrev nBuf : Space → Nat
  | .hbm => 9
  | .vmem => 6
  | .smem => 0
  | _ => 0

abbrev bufTy : (tb : Table) → Fin (tcTables nBuf tb) → BufTy
  | .hbm, ⟨0, _⟩ => ⟨S1x4096x3, .f32⟩
  | .hbm, ⟨1, _⟩ => ⟨S1x4096x3, .f32⟩
  | .hbm, ⟨2, _⟩ => ⟨S4096x3, .f32⟩
  | .hbm, ⟨3, _⟩ => ⟨S4096x3, .f32⟩
  | .hbm, ⟨4, _⟩ => ⟨S3x4096, .f32⟩
  | .hbm, ⟨5, _⟩ => ⟨S4096x1, .f32⟩
  | .hbm, ⟨6, _⟩ => ⟨S1x4096, .f32⟩
  | .hbm, ⟨7, _⟩ => ⟨S4096, .f32⟩
  | .hbm, ⟨8, _⟩ => ⟨S4096, .f32⟩
  | .local _ .vmem, ⟨0, _⟩ => ⟨S512x3, .f32⟩
  | .local _ .vmem, ⟨1, _⟩ => ⟨S512x3, .f32⟩
  | .local _ .vmem, ⟨2, _⟩ => ⟨S3x4096, .f32⟩
  | .local _ .vmem, ⟨3, _⟩ => ⟨S512x1, .f32⟩
  | .local _ .vmem, ⟨4, _⟩ => ⟨S512x1, .f32⟩
  | .local _ .vmem, ⟨5, _⟩ => ⟨S1x4096, .f32⟩
  | _, _ => ⟨S1x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v60 : BitVec 1 := Scalar.cmpi .eq arg0 c0_i32
  let v61 : BitVec 32 := Scalar.extui v60
  let c0_i32_8 : BitVec 32 := 0#32
  let v62 : BitVec 1 := Scalar.cmpi .ne v61 c0_i32_8
  v62

def k0_cond2 (i : grid0.Coords) : BitVec 1 :=
  let arg0 : BitVec 32 := BitVec.ofNat 32 (i 0).val
  let c0_i32_9 : BitVec 32 := 0#32
  let v63 : BitVec 1 := Scalar.cmpi .sgt arg0 c0_i32_9
  let v64 : BitVec 32 := Scalar.extui v63
  let c0_i32_10 : BitVec 32 := 0#32
  let v65 : BitVec 1 := Scalar.cmpi .ne v64 c0_i32_10
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S1x4096x3_S4096x3 : S1x4096x3.ShapeCasts S4096x3
  transposes_S4096x3_S3x4096_1_0 : S4096x3.Transposes [1, 0] S3x4096
  inb_S512x3_S512x3_0_0 : ∀ a, (![0, 0] : Fin 2 → Nat) a + S512x3.size a ≤ S512x3.size a
  h_S512x3 : 0 < S512x3.numel
  shapeCasts_S512x3_S512x3 : S512x3.ShapeCasts S512x3
  inb_S3x4096_S3x4096_0_0 : ∀ a, (![0, 0] : Fin 2 → Nat) a + S3x4096.size a ≤ S3x4096.size a
  h_S3x4096 : 0 < S3x4096.numel
  shapeCasts_S3x4096_S3x4096 : S3x4096.ShapeCasts S3x4096
  bitsLt_bf16_f32 : FTy.bits .bf16 < FTy.bits .f32
  slices_S512x3_o0_0_S512x1 : S512x3.Slices ![0, 0] S512x1
  slices_S3x4096_o0_0_S1x4096 : S3x4096.Slices ![0, 0] S1x4096
  broadcasts_S512x1_S512x4096 : S512x1.Broadcasts S512x4096
  broadcasts_S1x4096_S512x4096 : S1x4096.Broadcasts S512x4096
  slices_S512x3_o0_1_S512x1 : S512x3.Slices ![0, 1] S512x1
  slices_S3x4096_o1_0_S1x4096 : S3x4096.Slices ![1, 0] S1x4096
  slices_S512x3_o0_2_S512x1 : S512x3.Slices ![0, 2] S512x1
  slices_S3x4096_o2_0_S1x4096 : S3x4096.Slices ![2, 0] S1x4096
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  reduces_S512x4096_S4096 : S512x4096.Reduces [0] S4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  shapeCasts_S4096x1_S4096 : S4096x1.ShapeCasts S4096
  shapeCasts_S1x4096_S4096 : S1x4096.ShapeCasts S4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S4096x3.size a
  hwx0_0 : ∀ i : grid0.Coords, EltTy.bits .f32 = 32 ∨ (Rect.block (s := S4096x3) S512x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x4096.size a ≤ S3x4096.size a
  hwx0_1 : ∀ i : grid0.Coords, EltTy.bits .f32 = 32 ∨ (Rect.block (s := S3x4096) S3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)

variable [Facts₀]

abbrev win0_0 : Pipeline.Window sig grid0 :=
  Pipeline.Window.ofSpec (Memref.whole main_v0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x4096.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S1x4096x3 : Shape := ⟨3, ![1, 4096, 3]⟩
abbrev S_ : Shape := ⟨0, ![]⟩
abbrev S1x4096 : Shape := ⟨2, ![1, 4096]⟩
abbrev S1x4096x4096 : Shape := ⟨3, ![1, 4096, 4096]⟩
abbrev S1x4096x1 : Shape := ⟨3, ![1, 4096, 1]⟩
abbrev S1x1x4096 : Shape := ⟨3, ![1, 1, 4096]⟩
abbrev S4096 : Shape := ⟨1, ![4096]⟩

abbrev nBuf : Space → Nat
  | .hbm => 46
  | .vmem => 0
  | .smem => 0
  | _ => 0

abbrev bufTy : (tb : Table) → Fin (tcTables nBuf tb) → BufTy
  | .hbm, ⟨0, _⟩ => ⟨S1x4096x3, .f32⟩
  | .hbm, ⟨1, _⟩ => ⟨S1x4096x3, .f32⟩
  | .hbm, ⟨2, _⟩ => ⟨S1x4096x3, .f32⟩
  | .hbm, ⟨3, _⟩ => ⟨S_, .f32⟩
  | .hbm, ⟨4, _⟩ => ⟨S1x4096, .f32⟩
  | .hbm, ⟨5, _⟩ => ⟨S1x4096x3, .f32⟩
  | .hbm, ⟨6, _⟩ => ⟨S_, .f32⟩
  | .hbm, ⟨7, _⟩ => ⟨S1x4096, .f32⟩
  | .hbm, ⟨8, _⟩ => ⟨S1x4096x4096, .f32⟩
  | .hbm, ⟨9, _⟩ => ⟨S1x4096x1, .f32⟩
  | .hbm, ⟨10, _⟩ => ⟨S1x1x4096, .f32⟩
  | .hbm, ⟨11, _⟩ => ⟨S1x4096x4096, .f32⟩
  | .hbm, ⟨12, _⟩ => ⟨S1x4096x4096, .f32⟩
  | .hbm, ⟨13, _⟩ => ⟨S1x4096x4096, .f32⟩
  | .hbm, ⟨14, _⟩ => ⟨S_, .f32⟩
  | .hbm, ⟨15, _⟩ => ⟨S1x4096x4096, .f32⟩
  | .hbm, ⟨16, _⟩ => ⟨S1x4096x4096, .f32⟩
  | .hbm, ⟨17, _⟩ => ⟨S1x4096x4096, .f32⟩
  | .hbm, ⟨18, _⟩ => ⟨S_, .f32⟩
  | .hbm, ⟨19, _⟩ => ⟨S1x4096x4096, .f32⟩
  | .hbm, ⟨20, _⟩ => ⟨S1x4096x4096, .f32⟩
  | .hbm, ⟨21, _⟩ => ⟨S_, .f32⟩
  | .hbm, ⟨22, _⟩ => ⟨S1x4096, .f32⟩
  | .hbm, ⟨23, _⟩ => ⟨S1x4096x3, .f32⟩
  | .hbm, ⟨24, _⟩ => ⟨S_, .f32⟩
  | .hbm, ⟨25, _⟩ => ⟨S1x4096, .f32⟩
  | .hbm, ⟨26, _⟩ => ⟨S1x4096x3, .f32⟩
  | .hbm, ⟨27, _⟩ => ⟨S_, .f32⟩
  | .hbm, ⟨28, _⟩ => ⟨S1x4096, .f32⟩
  | .hbm, ⟨29, _⟩ => ⟨S1x4096x4096, .f32⟩
  | .hbm, ⟨30, _⟩ => ⟨S1x4096x1, .f32⟩
  | .hbm, ⟨31, _⟩ => ⟨S1x1x4096, .f32⟩
  | .hbm, ⟨32, _⟩ => ⟨S1x4096x4096, .f32⟩
  | .hbm, ⟨33, _⟩ => ⟨S1x4096x4096, .f32⟩
  | .hbm, ⟨34, _⟩ => ⟨S1x4096x4096, .f32⟩
  | .hbm, ⟨35, _⟩ => ⟨S_, .f32⟩
  | .hbm, ⟨36, _⟩ => ⟨S1x4096x4096, .f32⟩
  | .hbm, ⟨37, _⟩ => ⟨S1x4096x4096, .f32⟩
  | .hbm, ⟨38, _⟩ => ⟨S1x4096x4096, .f32⟩
  | .hbm, ⟨39, _⟩ => ⟨S_, .f32⟩
  | .hbm, ⟨40, _⟩ => ⟨S1x4096x4096, .f32⟩
  | .hbm, ⟨41, _⟩ => ⟨S1x4096x4096, .f32⟩
  | .hbm, ⟨42, _⟩ => ⟨S_, .f32⟩
  | .hbm, ⟨43, _⟩ => ⟨S1x4096, .f32⟩
  | .hbm, ⟨44, _⟩ => ⟨S4096, .f32⟩
  | .hbm, ⟨45, _⟩ => ⟨S4096, .f32⟩
  | _, _ => ⟨S1x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  reducesTo_S1x4096x3_S1x4096_d2 : S1x4096x3.ReducesTo [2] S1x4096
  h_S_ : 0 < S_.numel
  bcast_S1x4096_S1x4096x1_0_1 : S1x4096.BroadcastsInDim S1x4096x1 (![0, 1] : Fin 2 → Fin S1x4096x1.rank)
  bcast_S1x4096_S1x1x4096_0_2 : S1x4096.BroadcastsInDim S1x1x4096 (![0, 2] : Fin 2 → Fin S1x1x4096.rank)
  bcast_S1x4096x1_S1x4096x4096_0_1_2 : S1x4096x1.BroadcastsInDim S1x4096x4096 (![0, 1, 2] : Fin 3 → Fin S1x4096x4096.rank)
  bcast_S1x1x4096_S1x4096x4096_0_1_2 : S1x1x4096.BroadcastsInDim S1x4096x4096 (![0, 1, 2] : Fin 3 → Fin S1x4096x4096.rank)
  bcast_S_S1x4096x4096 : S_.BroadcastsInDim S1x4096x4096 (![] : Fin 0 → Fin S1x4096x4096.rank)
  reducesTo_S1x4096x4096_S1x4096_d2 : S1x4096x4096.ReducesTo [2] S1x4096
  shapeCasts_S1x4096_S4096 : S1x4096.ShapeCasts S4096
  dot_S1x4096x3_S1x4096x3_S1x4096x4096_2_2_1_1_0_0_wf : DotDims.WF S1x4096x3 S1x4096x3 S1x4096x4096 [2] [2] [1] [1] [0] [0]

variable [Facts₀]

def dot_S1x4096x3_S1x4096x3_S1x4096x4096_2_2_1_1_0_0 : DotDims S1x4096x3 S1x4096x3 S1x4096x4096 where
  lhsContracting := [2]
  rhsContracting := [2]
  lhsNonContracting := [1]
  rhsNonContracting := [1]
  lhsBatch := [0]
  rhsBatch := [0]
  wf := dot_S1x4096x3_S1x4096x3_S1x4096x4096_2_2_1_1_0_0_wf

class Facts : Prop extends Facts₀ where

variable [Facts]
-- ==== Proof.RunsBits.lean ====
/-
  The body of the distance kernel as printed, run once per case of its two branches.
  At a grid point the body loads a block of 512 source points and the whole (transposed) target cloud, forms the
  512 × 4096 matrix of clipped squared distances, stores its row minima into the forward buffer, and folds its
  column minima into the backward buffer: stored as they are where the reset branch is taken, combined by `min`
  with what the buffer holds where the accumulating branch is taken. Each store writes a whole block, so what a
  buffer holds afterwards is the store's payload.
-/
import proofs.«167455_g14620068675781_cont_week2b_1446_3_alg».proof.Proof.Gen.Kernel.Frame
import proofs.«167455_g14620068675781_cont_week2b_1446_3_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offset of a whole-block access. -/
theorem hz2 : (![0, 0] : Fin 2 → Nat) = fun _ => 0 := by
  funext a; match a with | ⟨0, _⟩ => rfl | ⟨1, _⟩ => rfl

/-- A buffer read back after ONE store through its whole block holds the store's payload, whatever it held before. -/
theorem read_store_whole {S : Shape} {e : EltTy} (M : Memref sig .tc .vmem S e) (f : M.view.ty.Contents (Elt F))
    {off : Fin S.rank → Nat} (hz : off = fun _ => 0) (inb : ∀ a, off a + S.size a ≤ S.size a) (w : S.Idx → Elt F e) :
    M.view.read (Elt F) (M.view.writes (Elt F) f [(⟨Rect.unit off S.size inb, w⟩ : View.Piece (Elt F) S e)]) = w := by
  rw [View.read_writes_eq_canon _ _ _ (fun y => ⟨_, List.mem_singleton_self _, View.mem_set_unit_zero hz inb y⟩),
    View.canon_unit_zero hz]

set_option maxHeartbeats 1000000 in
/-- The body at the first point (the reset branch taken, the accumulating branch not): from whole staging
    buffers holding the two input blocks `x0`, `x1` and anything in the two output buffers, it runs to the
    continuation with the inputs as they were, the row minima of the clipped distances in the forward buffer and
    their column minima in the backward buffer (each output's one store covers its block). -/
theorem run_first (c : Dev nD) (i : grid0.Coords)
    (arg1 : Memref sig .tc .vmem S512x3 .f32) (harg1 : arg1.IsWhole) (arg2 : Memref sig .tc .vmem S3x4096 .f32) (harg2 : arg2.IsWhole)
    (arg3 : Memref sig .tc .vmem S512x1 .f32) (harg3 : arg3.IsWhole) (arg4 : Memref sig .tc .vmem S1x4096 .f32) (harg4 : arg4.IsWhole)
    (hc1 : k0_cond1 i = 1#1) (hc2 : ¬ k0_cond2 i = 1#1)
    (x0 : Vec F S512x3 .f32) (x1 : Vec F S3x4096 .f32) (xo2 : Vec F S512x1 .f32) (xo3 : Vec F S1x4096 .f32)
    (E : Set ℕ) (K : PUnit → sProp 𝕄) :
    iprop(owns (c : Thread nD τ) arg1 fullShare x0 ∗ owns (c : Thread nD τ) arg2 fullShare x1
        ∗ owns (c : Thread nD τ) arg3 fullShare xo2 ∗ owns (c : Thread nD τ) arg4 fullShare xo3
        ∗ (iprop(owns (c : Thread nD τ) arg1 fullShare x0 ∗ owns (c : Thread nD τ) arg2 fullShare x1
            ∗ owns (c : Thread nD τ) arg3 fullShare (k0_pay2 (k0_pay5 x0 x1) (Scalar.ofBits .f32 0x00000000#32))
            ∗ owns (c : Thread nD τ) arg4 fullShare (k0_pay3 (k0_pay5 x0 x1) (Scalar.ofBits .f32 0x00000000#32))) -∗ K ⟨⟩))
      ⊢ wp frame (wpE (defs₀ (F := F)) Variants.none c none) E (cc0__chamfer_body i arg1 harg1 arg2 harg2 arg3 harg3 arg4 harg4) K := by
  simp only [cc0__chamfer_body_eq_skeleton]; unfold cc0__chamfer_body_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1
  obtain rfl := harg3.eq_unread hf2; obtain rfl := harg4.eq_unread hf3
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    refine (read_store_whole arg3 _ hz2 _ _).trans ?_
    sl_unfold_run_names
    simp only [View.readAt_eq_ld, harg1.read_unread, harg2.read_unread, View.ld_unit_zero (S := S512x3) hz2,
      View.ld_unit_zero (S := S3x4096) hz2]
  iexists _; isplitr
  swap; · iexact H3
  ipureintro
  refine (read_store_whole arg4 _ hz2 _ _).trans ?_
  sl_unfold_run_names
  simp only [View.readAt_eq_ld, harg1.read_unread, harg2.read_unread, View.ld_unit_zero (S := S512x3) hz2,
    View.ld_unit_zero (S := S3x4096) hz2]

set_option maxHeartbeats 1000000 in
/-- The body at a later point (the reset branch not taken, the accumulating branch taken): the backward buffer,
    holding the running column minima `xo3`, ends at their minimum with this point's column minima. -/
theorem run_later (c : Dev nD) (i : grid0.Coords)
    (arg1 : Memref sig .tc .vmem S512x3 .f32) (harg1 : arg1.IsWhole) (arg2 : Memref sig .tc .vmem S3x4096 .f32) (harg2 : arg2.IsWhole)
    (arg3 : Memref sig .tc .vmem S512x1 .f32) (harg3 : arg3.IsWhole) (arg4 : Memref sig .tc .vmem S1x4096 .f32) (harg4 : arg4.IsWhole)
    (hc1 : ¬ k0_cond1 i = 1#1) (hc2 : k0_cond2 i = 1#1)
    (x0 : Vec F S512x3 .f32) (x1 : Vec F S3x4096 .f32) (xo2 : Vec F S512x1 .f32) (xo3 : Vec F S1x4096 .f32)
    (E : Set ℕ) (K : PUnit → sProp 𝕄) :
    iprop(owns (c : Thread nD τ) arg1 fullShare x0 ∗ owns (c : Thread nD τ) arg2 fullShare x1
        ∗ owns (c : Thread nD τ) arg3 fullShare xo2 ∗ owns (c : Thread nD τ) arg4 fullShare xo3
        ∗ (iprop(owns (c : Thread nD τ) arg1 fullShare x0 ∗ owns (c : Thread nD τ) arg2 fullShare x1
            ∗ owns (c : Thread nD τ) arg3 fullShare (k0_pay2 (k0_pay5 x0 x1) (Scalar.ofBits .f32 0x00000000#32))
            ∗ owns (c : Thread nD τ) arg4 fullShare (k0_pay4 (k0_pay5 x0 x1) (Scalar.ofBits .f32 0x00000000#32) xo3)) -∗ K ⟨⟩))
      ⊢ wp frame (wpE (defs₀ (F := F)) Variants.none c none) E (cc0__chamfer_body i arg1 harg1 arg2 harg2 arg3 harg3 arg4 harg4) K := by
  simp only [cc0__chamfer_body_eq_skeleton]; unfold cc0__chamfer_body_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1
  obtain rfl := harg3.eq_unread hf2; obtain rfl := harg4.eq_unread hf3
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    refine (read_store_whole arg3 _ hz2 _ _).trans ?_
    sl_unfold_run_names
    simp only [View.readAt_eq_ld, harg1.read_unread, harg2.read_unread, View.ld_unit_zero (S := S512x3) hz2,
      View.ld_unit_zero (S := S3x4096) hz2]
  iexists _; isplitr
  swap; · iexact H3
  ipureintro
  refine (read_store_whole arg4 _ hz2 _ _).trans ?_
  sl_unfold_run_names
  simp only [View.readAt_eq_ld, harg1.read_unread, harg2.read_unread, harg4.read_unread, View.ld_unit_zero (S := S512x3) hz2,
    View.ld_unit_zero (S := S3x4096) hz2, View.ld_unit_zero (S := S1x4096) hz2]

end Cert.Kernel.Hand

end
-- ==== Proof.BodyBits.lean ====
/-
  The proof data of the distance kernel's pipeline as printed, its body obligation, its run and its frame.
  The backward buffer is written back after the last grid point only, so between points it keeps what the body
  left: its contents after point `n` are defined by recursion on `n` — the first point's column minima, then the
  minimum with each later point's. The forward buffer holds the point's row minima. With these as the proof data
  the pipeline's launch theorem gives the run, and the run gives the frame: the program terminates, nothing
  faults, and the two argument arrays end as launched.
-/
import proofs.«167455_g14620068675781_cont_week2b_1446_3_alg».proof.Proof.Gen.Kernel.Frame
import proofs.«167455_g14620068675781_cont_week2b_1446_3_alg».proof.Proof.Gen.Kernel.Skeleton
import proofs.«167455_g14620068675781_cont_week2b_1446_3_alg».proof.Proof.RunsBits
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid -/

/-- The reset branch is taken at the first point only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- The accumulating branch is taken at every later point. -/
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)
/-- One of the two branches stores into the backward buffer whatever the grid coordinate: the window is idle nowhere. -/
theorem live3 : ∀ i : grid0.Coords, cfg0.idle 3 i = false := by decide +kernel

/-- In particular at every grid point. -/
theorem live3_at (t : Fin cfg0.N) : cfg0.idle 3 (cfg0.grid.coords t) = false := live3 _

/-! ## What the two output buffers hold after each point -/

/-- Each window's current staging memref at point `t`, as the pipeline passes it to the body, and its wholeness. -/
abbrev ms0 (t : Fin cfg0.N) : Memref sig .tc .vmem S512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4096 .f32 := win0_3.stage (cfg0.slots t 3)
abbrev hs3 (t : Fin cfg0.N) : (ms3 t).IsWhole := hstage0_3 ((cfg0.slots t 3).cast nbuf0_3)

/-- The word the body prints for the clipping constant. -/
abbrev zeroW : F .f32 := Scalar.ofBits .f32 0x00000000#32

/-- The forward buffer after point `t`: the row minima of the clipped distances between the point's block of
    source points and the target cloud. -/
def rowMin (c : Dev nD) (t : Fin cfg0.N) : Vec F S512x1 .f32 :=
  k0_pay2 (k0_pay5 (iblk m c 0 t) (iblk m c 1 t)) zeroW

/-- THE ACCUMULATION. The backward buffer after the point at position `n`: at the first point the column minima
    of its block's clipped distances, at a later one the minimum of those with what the point before left (the
    buffer is not written back in between). -/
def colAcc (c : Dev nD) : (n : ℕ) → n < cfg0.N → Vec F S1x4096 .f32
  | 0, hn => k0_pay3 (k0_pay5 (iblk m c 0 ⟨0, hn⟩) (iblk m c 1 ⟨0, hn⟩)) zeroW
  | n + 1, hn => k0_pay4 (k0_pay5 (iblk m c 0 ⟨n + 1, hn⟩) (iblk m c 1 ⟨n + 1, hn⟩)) zeroW (colAcc c n (Nat.lt_of_succ_lt hn))

/-- At the first point. -/
theorem colAcc_first (c : Dev nD) (t : Fin cfg0.N) (h0 : t.val = 0) :
    colAcc m c t.val t.isLt = k0_pay3 (k0_pay5 (iblk m c 0 t) (iblk m c 1 t)) zeroW := by
  obtain ⟨n, hn⟩ := t
  cases n with
  | zero => rfl
  | succ n => exact absurd h0 (Nat.succ_ne_zero n)

/-- At a later point. -/
theorem colAcc_later (c : Dev nD) (t : Fin cfg0.N) (h0 : t.val ≠ 0) :
    colAcc m c t.val t.isLt = k0_pay4 (k0_pay5 (iblk m c 0 t) (iblk m c 1 t)) zeroW
      (colAcc m c (t.val - 1) (Nat.lt_of_le_of_lt (Nat.sub_le _ _) t.isLt)) := by
  obtain ⟨n, hn⟩ := t
  cases n with
  | zero => exact absurd rfl h0
  | succ n => rfl

/-! ## The pipeline's proof data -/

/-- The proof data of the pipeline on core `c`: the arrays as the region finds them; after the body at point `t`
    each input's buffer at its block, the forward buffer at the point's row minima, the backward buffer at the
    running column minima; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowMin m c t
    | ⟨3, _⟩ => colAcc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = rowMin m c t := by dsimp only [dats]
theorem after_3 (c : Dev nD) (t : Fin cfg0.N) : (dats m 0 c).after 3 t = colAcc m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- At a later point the backward buffer holds what the body left at the point before: it is written back at the
    last point only, and the window is live everywhere and uncut. -/
theorem before_3_later (c : Dev nD) (t : Fin cfg0.N) (h0 : t.val ≠ 0) (d) :
    (dats m 0 c).before 3 t d = colAcc m c (t.val - 1) (Nat.lt_of_le_of_lt (Nat.sub_le _ _) t.isLt) := by
  have hN : t.val < 8 := lt_of_lt_of_eq t.isLt (show cfg0.N = 8 from N_0)
  rw [Dat.before_out_kept _ 3 rfl t h0 (Bool.eq_false_iff.mpr fun h => by have := (flush0_3 _).mp h; dsimp only at this; omega)
    live3 (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; the first point is the reset case, every later
    point the accumulating case with the backward buffer at what the point before left; the invariant passes
    through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  unfold rowMin
  by_cases h0 : t.val = 0
  · rw [colAcc_first m c t h0]
    iintro ⟨HΦ, Ho, ⟨%d0, H0⟩, ⟨%d1, H1⟩, ⟨%d2, H2⟩, ⟨%d3, H3⟩⟩
    iapply (run_first c (grid0.coords t) (ms0 t) (hs0 t) (ms1 t) (hs1 t) (ms2 t) (hs2 t) (ms3 t) (hs3 t)
      ((hcond1 t).mpr h0) (fun h => (hcond2 t).mp h h0) (iblk m c 0 t) (iblk m c 1 t) _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [colAcc_later m c t h0]
    simp only [before_3_later m c t h0]
    iintro ⟨HΦ, Ho, ⟨%d0, H0⟩, ⟨%d1, H1⟩, ⟨%d2, H2⟩, ⟨%d3, H3⟩⟩
    iapply (run_later c (grid0.coords t) (ms0 t) (hs0 t) (ms1 t) (hs1 t) (ms2 t) (hs2 t) (ms3 t) (hs3 t)
      (fun h => h0 ((hcond1 t).mp h)) ((hcond2 t).mpr h0) (iblk m c 0 t) (iblk m c 1 t) _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

set_option maxHeartbeats 2000000 in
/-- The library's body obligation, at every point. -/
theorem body_obligation (c : Dev nD) : BodyObligation (dats (F := F) m 0 c) (defs₀ (F := F)) Variants.none () Set.univ := fun t => by
  rw [bigSep_W0, bigSep_W0, live3_at t]
  exact sound_body m c t

/-! ## The run and the frame -/

set_option backward.isDefEq.respectTransparency.types false in
/-- From any memory with zero counters every weakly fair execution of the program on the TensorCores terminates, and
    every final state has every array of the pipeline at what the library computes from the proof data and every
    other unscoped buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program terminates without a fault and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.RunsIdeal.lean ====
/-
  The body of the distance kernel as idealized, run once per case of its two branches.
  At a grid point the body loads a block of 512 source points and the whole (transposed) target cloud, forms the
  512 × 4096 matrix of clipped squared distances, stores its row minima into the forward buffer, and folds its
  column minima into the backward buffer: stored as they are where the reset branch is taken, combined by `min`
  with what the buffer holds where the accumulating branch is taken. Each store writes a whole block, so what a
  buffer holds afterwards is the store's payload.
-/
import proofs.«167455_g14620068675781_cont_week2b_1446_3_alg».proof.Proof.Gen.KernelIdeal.Frame
import proofs.«167455_g14620068675781_cont_week2b_1446_3_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offset of a whole-block access. -/
theorem hz2 : (![0, 0] : Fin 2 → Nat) = fun _ => 0 := by
  funext a; match a with | ⟨0, _⟩ => rfl | ⟨1, _⟩ => rfl

/-- A buffer read back after ONE store through its whole block holds the store's payload, whatever it held before. -/
theorem read_store_whole {S : Shape} {e : EltTy} (M : Memref sig .tc .vmem S e) (f : M.view.ty.Contents (Elt F))
    {off : Fin S.rank → Nat} (hz : off = fun _ => 0) (inb : ∀ a, off a + S.size a ≤ S.size a) (w : S.Idx → Elt F e) :
    M.view.read (Elt F) (M.view.writes (Elt F) f [(⟨Rect.unit off S.size inb, w⟩ : View.Piece (Elt F) S e)]) = w := by
  rw [View.read_writes_eq_canon _ _ _ (fun y => ⟨_, List.mem_singleton_self _, View.mem_set_unit_zero hz inb y⟩),
    View.canon_unit_zero hz]

set_option maxHeartbeats 1000000 in
/-- The body at the first point (the reset branch taken, the accumulating branch not): from whole staging
    buffers holding the two input blocks `x0`, `x1` and anything in the two output buffers, it runs to the
    continuation with the inputs as they were, the row minima of the clipped distances in the forward buffer and
    their column minima in the backward buffer (each output's one store covers its block). -/
theorem run_first (c : Dev nD) (i : grid0.Coords)
    (arg1 : Memref sig .tc .vmem S512x3 .f32) (harg1 : arg1.IsWhole) (arg2 : Memref sig .tc .vmem S3x4096 .f32) (harg2 : arg2.IsWhole)
    (arg3 : Memref sig .tc .vmem S512x1 .f32) (harg3 : arg3.IsWhole) (arg4 : Memref sig .tc .vmem S1x4096 .f32) (harg4 : arg4.IsWhole)
    (hc1 : k0_cond1 i = 1#1) (hc2 : ¬ k0_cond2 i = 1#1)
    (x0 : Vec F S512x3 .f32) (x1 : Vec F S3x4096 .f32) (xo2 : Vec F S512x1 .f32) (xo3 : Vec F S1x4096 .f32)
    (E : Set ℕ) (K : PUnit → sProp 𝕄) :
    iprop(owns (c : Thread nD τ) arg1 fullShare x0 ∗ owns (c : Thread nD τ) arg2 fullShare x1
        ∗ owns (c : Thread nD τ) arg3 fullShare xo2 ∗ owns (c : Thread nD τ) arg4 fullShare xo3
        ∗ (iprop(owns (c : Thread nD τ) arg1 fullShare x0 ∗ owns (c : Thread nD τ) arg2 fullShare x1
            ∗ owns (c : Thread nD τ) arg3 fullShare (k0_pay2 (k0_pay5 x0 x1) (Scalar.ofBits .f32 0x00000000#32))
            ∗ owns (c : Thread nD τ) arg4 fullShare (k0_pay3 (k0_pay5 x0 x1) (Scalar.ofBits .f32 0x00000000#32))) -∗ K ⟨⟩))
      ⊢ wp frame (wpE (defs₀ (F := F)) Variants.none c none) E (cc0__chamfer_body i arg1 harg1 arg2 harg2 arg3 harg3 arg4 harg4) K := by
  simp only [cc0__chamfer_body_eq_skeleton]; unfold cc0__chamfer_body_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1
  obtain rfl := harg3.eq_unread hf2; obtain rfl := harg4.eq_unread hf3
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    refine (read_store_whole arg3 _ hz2 _ _).trans ?_
    sl_unfold_run_names
    simp only [View.readAt_eq_ld, harg1.read_unread, harg2.read_unread, View.ld_unit_zero (S := S512x3) hz2,
      View.ld_unit_zero (S := S3x4096) hz2]
  iexists _; isplitr
  swap; · iexact H3
  ipureintro
  refine (read_store_whole arg4 _ hz2 _ _).trans ?_
  sl_unfold_run_names
  simp only [View.readAt_eq_ld, harg1.read_unread, harg2.read_unread, View.ld_unit_zero (S := S512x3) hz2,
    View.ld_unit_zero (S := S3x4096) hz2]

set_option maxHeartbeats 1000000 in
/-- The body at a later point (the reset branch not taken, the accumulating branch taken): the backward buffer,
    holding the running column minima `xo3`, ends at their minimum with this point's column minima. -/
theorem run_later (c : Dev nD) (i : grid0.Coords)
    (arg1 : Memref sig .tc .vmem S512x3 .f32) (harg1 : arg1.IsWhole) (arg2 : Memref sig .tc .vmem S3x4096 .f32) (harg2 : arg2.IsWhole)
    (arg3 : Memref sig .tc .vmem S512x1 .f32) (harg3 : arg3.IsWhole) (arg4 : Memref sig .tc .vmem S1x4096 .f32) (harg4 : arg4.IsWhole)
    (hc1 : ¬ k0_cond1 i = 1#1) (hc2 : k0_cond2 i = 1#1)
    (x0 : Vec F S512x3 .f32) (x1 : Vec F S3x4096 .f32) (xo2 : Vec F S512x1 .f32) (xo3 : Vec F S1x4096 .f32)
    (E : Set ℕ) (K : PUnit → sProp 𝕄) :
    iprop(owns (c : Thread nD τ) arg1 fullShare x0 ∗ owns (c : Thread nD τ) arg2 fullShare x1
        ∗ owns (c : Thread nD τ) arg3 fullShare xo2 ∗ owns (c : Thread nD τ) arg4 fullShare xo3
        ∗ (iprop(owns (c : Thread nD τ) arg1 fullShare x0 ∗ owns (c : Thread nD τ) arg2 fullShare x1
            ∗ owns (c : Thread nD τ) arg3 fullShare (k0_pay2 (k0_pay5 x0 x1) (Scalar.ofBits .f32 0x00000000#32))
            ∗ owns (c : Thread nD τ) arg4 fullShare (k0_pay4 (k0_pay5 x0 x1) (Scalar.ofBits .f32 0x00000000#32) xo3)) -∗ K ⟨⟩))
      ⊢ wp frame (wpE (defs₀ (F := F)) Variants.none c none) E (cc0__chamfer_body i arg1 harg1 arg2 harg2 arg3 harg3 arg4 harg4) K := by
  simp only [cc0__chamfer_body_eq_skeleton]; unfold cc0__chamfer_body_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1
  obtain rfl := harg3.eq_unread hf2; obtain rfl := harg4.eq_unread hf3
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    refine (read_store_whole arg3 _ hz2 _ _).trans ?_
    sl_unfold_run_names
    simp only [View.readAt_eq_ld, harg1.read_unread, harg2.read_unread, View.ld_unit_zero (S := S512x3) hz2,
      View.ld_unit_zero (S := S3x4096) hz2]
  iexists _; isplitr
  swap; · iexact H3
  ipureintro
  refine (read_store_whole arg4 _ hz2 _ _).trans ?_
  sl_unfold_run_names
  simp only [View.readAt_eq_ld, harg1.read_unread, harg2.read_unread, harg4.read_unread, View.ld_unit_zero (S := S512x3) hz2,
    View.ld_unit_zero (S := S3x4096) hz2, View.ld_unit_zero (S := S1x4096) hz2]

end Cert.KernelIdeal.Hand

end
-- ==== Proof.BodyIdeal.lean ====
/-
  The proof data of the distance kernel's pipeline as idealized, its body obligation, its run and its frame.
  The backward buffer is written back after the last grid point only, so between points it keeps what the body
  left: its contents after point `n` are defined by recursion on `n` — the first point's column minima, then the
  minimum with each later point's. The forward buffer holds the point's row minima. With these as the proof data
  the pipeline's launch theorem gives the run, and the run gives the frame: the program terminates, nothing
  faults, and the two argument arrays end as launched.
-/
import proofs.«167455_g14620068675781_cont_week2b_1446_3_alg».proof.Proof.Gen.KernelIdeal.Frame
import proofs.«167455_g14620068675781_cont_week2b_1446_3_alg».proof.Proof.Gen.KernelIdeal.Skeleton
import proofs.«167455_g14620068675781_cont_week2b_1446_3_alg».proof.Proof.RunsIdeal
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid -/

/-- The reset branch is taken at the first point only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- The accumulating branch is taken at every later point. -/
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)
/-- One of the two branches stores into the backward buffer whatever the grid coordinate: the window is idle nowhere. -/
theorem live3 : ∀ i : grid0.Coords, cfg0.idle 3 i = false := by decide +kernel

/-- In particular at every grid point. -/
theorem live3_at (t : Fin cfg0.N) : cfg0.idle 3 (cfg0.grid.coords t) = false := live3 _

/-! ## What the two output buffers hold after each point -/

/-- Each window's current staging memref at point `t`, as the pipeline passes it to the body, and its wholeness. -/
abbrev ms0 (t : Fin cfg0.N) : Memref sig .tc .vmem S512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4096 .f32 := win0_3.stage (cfg0.slots t 3)
abbrev hs3 (t : Fin cfg0.N) : (ms3 t).IsWhole := hstage0_3 ((cfg0.slots t 3).cast nbuf0_3)

/-- The word the body prints for the clipping constant. -/
abbrev zeroW : F .f32 := Scalar.ofBits .f32 0x00000000#32

/-- The forward buffer after point `t`: the row minima of the clipped distances between the point's block of
    source points and the target cloud. -/
def rowMin (c : Dev nD) (t : Fin cfg0.N) : Vec F S512x1 .f32 :=
  k0_pay2 (k0_pay5 (iblk m c 0 t) (iblk m c 1 t)) zeroW

/-- THE ACCUMULATION. The backward buffer after the point at position `n`: at the first point the column minima
    of its block's clipped distances, at a later one the minimum of those with what the point before left (the
    buffer is not written back in between). -/
def colAcc (c : Dev nD) : (n : ℕ) → n < cfg0.N → Vec F S1x4096 .f32
  | 0, hn => k0_pay3 (k0_pay5 (iblk m c 0 ⟨0, hn⟩) (iblk m c 1 ⟨0, hn⟩)) zeroW
  | n + 1, hn => k0_pay4 (k0_pay5 (iblk m c 0 ⟨n + 1, hn⟩) (iblk m c 1 ⟨n + 1, hn⟩)) zeroW (colAcc c n (Nat.lt_of_succ_lt hn))

/-- At the first point. -/
theorem colAcc_first (c : Dev nD) (t : Fin cfg0.N) (h0 : t.val = 0) :
    colAcc m c t.val t.isLt = k0_pay3 (k0_pay5 (iblk m c 0 t) (iblk m c 1 t)) zeroW := by
  obtain ⟨n, hn⟩ := t
  cases n with
  | zero => rfl
  | succ n => exact absurd h0 (Nat.succ_ne_zero n)

/-- At a later point. -/
theorem colAcc_later (c : Dev nD) (t : Fin cfg0.N) (h0 : t.val ≠ 0) :
    colAcc m c t.val t.isLt = k0_pay4 (k0_pay5 (iblk m c 0 t) (iblk m c 1 t)) zeroW
      (colAcc m c (t.val - 1) (Nat.lt_of_le_of_lt (Nat.sub_le _ _) t.isLt)) := by
  obtain ⟨n, hn⟩ := t
  cases n with
  | zero => exact absurd rfl h0
  | succ n => rfl

/-! ## The pipeline's proof data -/

/-- The proof data of the pipeline on core `c`: the arrays as the region finds them; after the body at point `t`
    each input's buffer at its block, the forward buffer at the point's row minima, the backward buffer at the
    running column minima; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowMin m c t
    | ⟨3, _⟩ => colAcc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = rowMin m c t := by dsimp only [dats]
theorem after_3 (c : Dev nD) (t : Fin cfg0.N) : (dats m 0 c).after 3 t = colAcc m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- At a later point the backward buffer holds what the body left at the point before: it is written back at the
    last point only, and the window is live everywhere and uncut. -/
theorem before_3_later (c : Dev nD) (t : Fin cfg0.N) (h0 : t.val ≠ 0) (d) :
    (dats m 0 c).before 3 t d = colAcc m c (t.val - 1) (Nat.lt_of_le_of_lt (Nat.sub_le _ _) t.isLt) := by
  have hN : t.val < 8 := lt_of_lt_of_eq t.isLt (show cfg0.N = 8 from N_0)
  rw [Dat.before_out_kept _ 3 rfl t h0 (Bool.eq_false_iff.mpr fun h => by have := (flush0_3 _).mp h; dsimp only at this; omega)
    live3 (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; the first point is the reset case, every later
    point the accumulating case with the backward buffer at what the point before left; the invariant passes
    through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  unfold rowMin
  by_cases h0 : t.val = 0
  · rw [colAcc_first m c t h0]
    iintro ⟨HΦ, Ho, ⟨%d0, H0⟩, ⟨%d1, H1⟩, ⟨%d2, H2⟩, ⟨%d3, H3⟩⟩
    iapply (run_first c (grid0.coords t) (ms0 t) (hs0 t) (ms1 t) (hs1 t) (ms2 t) (hs2 t) (ms3 t) (hs3 t)
      ((hcond1 t).mpr h0) (fun h => (hcond2 t).mp h h0) (iblk m c 0 t) (iblk m c 1 t) _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [colAcc_later m c t h0]
    simp only [before_3_later m c t h0]
    iintro ⟨HΦ, Ho, ⟨%d0, H0⟩, ⟨%d1, H1⟩, ⟨%d2, H2⟩, ⟨%d3, H3⟩⟩
    iapply (run_later c (grid0.coords t) (ms0 t) (hs0 t) (ms1 t) (hs1 t) (ms2 t) (hs2 t) (ms3 t) (hs3 t)
      (fun h => h0 ((hcond1 t).mp h)) ((hcond2 t).mpr h0) (iblk m c 0 t) (iblk m c 1 t) _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

set_option maxHeartbeats 2000000 in
/-- The library's body obligation, at every point. -/
theorem body_obligation (c : Dev nD) : BodyObligation (dats (F := F) m 0 c) (defs₀ (F := F)) Variants.none () Set.univ := fun t => by
  rw [bigSep_W0, bigSep_W0, live3_at t]
  exact sound_body m c t

/-! ## The run and the frame -/

set_option backward.isDefEq.respectTransparency.types false in
/-- From any memory with zero counters every weakly fair execution of the program on the TensorCores terminates, and
    every final state has every array of the pipeline at what the library computes from the proof data and every
    other unscoped buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program terminates without a fault and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Blocks.lean ====
/-
  Layout only, for any float instance: where an element of a staged block sits in the argument clouds, and where
  an element of a flattened result sits in the array it was flattened from.

  The source cloud reaches the region as a 4096 × 3 array (the batch axis dropped), staged 512 rows at a time:
  row `r` of block `t` is point `512·t + r`. The target cloud reaches it dropped to 4096 × 3 and then transposed
  to 3 × 4096, staged whole at every point: entry `(k, n)` is coordinate `k` of point `n`. After the region a
  4096 × 1 column and a 1 × 4096 row are flattened to length 4096: entry `n` is entry `(n, 0)`, `(0, n)`.
-/
import proofs.«167455_g14620068675781_cont_week2b_1446_3_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Idealize.ShloMosaic Idealize.ShloMosaic.ValueIdx Idealize.ShloMosaic.TcCoe Idealize.ShloMosaic.Tactic
open Idealize.SL Idealize.SL.Sem
open Cert.KernelIdeal Cert.KernelIdeal.Gen

variable {F : FTy → Type} [FloatOps F]

variable (m : (ℓ : Loc nD τ sig) → Buf (Elt F) ℓ)

/-! ## The layout operations at an index, over any array -/

/-- Dropping the unit batch axis: entry `(n, k)` of the 4096 × 3 array is entry `(0, n, k)` of the cloud
    (both sit at row-major position `3·n + k`). -/
theorem flat3 (x : S1x4096x3.Idx → Elt F .f32) (n : Fin 4096) (k : Fin 3) :
    shapeCast S4096x3 x shapeCasts_S1x4096x3_S4096x3 (ix2 n k) = x (ix3 (0 : Fin 1) n k) :=
  shapeCast_apply x shapeCasts_S1x4096x3_S4096x3 (ix2 n k) (ix3 (0 : Fin 1) n k)
    (by rewrite [Shape.rowMajor_val_three, Shape.rowMajor_val_two]
        show (0 * 4096 + n.val) * 3 + k.val = n.val * 3 + k.val; omega)

/-- The transpose: entry `(k, n)` of the 3 × 4096 array is entry `(n, k)` of the 4096 × 3 one. -/
theorem tr_apply (x : S4096x3.Idx → Elt F .f32) (k : Fin 3) (n : Fin 4096) :
    transpose S3x4096 [1, 0] x transposes_S4096x3_S3x4096_1_0 (ix2 k n) = x (ix2 n k) :=
  transpose_apply [1, 0] x transposes_S4096x3_S3x4096_1_0 (ix2 k n) (ix2 n k)
    (fun b => match b with | ⟨0, _⟩ => rfl | ⟨1, _⟩ => rfl)

/-- Flattening a column: entry `n` is entry `(n, 0)` (both at row-major position `n`). -/
theorem col_flat (y : S4096x1.Idx → Elt F .f32) (n : Fin 4096) :
    shapeCast S4096 y shapeCasts_S4096x1_S4096 (ix1 n) = y (ix2 n (0 : Fin 1)) :=
  shapeCast_apply y shapeCasts_S4096x1_S4096 (ix1 n) (ix2 n (0 : Fin 1))
    (by rewrite [Shape.rowMajor_val_two, Shape.rowMajor_val_one]; show n.val * 1 + 0 = n.val; omega)

/-- Flattening a row: entry `n` is entry `(0, n)` (both at row-major position `n`). -/
theorem row_flat (y : S1x4096.Idx → Elt F .f32) (n : Fin 4096) :
    shapeCast S4096 y shapeCasts_S1x4096_S4096 (ix1 n) = y (ix2 (0 : Fin 1) n) :=
  shapeCast_apply y shapeCasts_S1x4096_S4096 (ix1 n) (ix2 (0 : Fin 1) n)
    (by rewrite [Shape.rowMajor_val_two, Shape.rowMajor_val_one]; show 0 * 4096 + n.val = n.val; omega)

/-! ## The two staged arrays as the region finds them -/

/-- The first staged array is the source cloud with its batch axis dropped. -/
theorem V_v0 (c : Dev nD) :
    (V m c main_v0 : S4096x3.Idx → Elt F .f32)
      = shapeCast S4096x3 (m ((c.tc : Thread nD τ).loc main_arg0)) shapeCasts_S1x4096x3_S4096x3 := by
  dsimp only [Gen.V, Gen.V0]
  simp only [Gen.hostOps0, List.flatten_cons, List.flatten_nil, List.append_nil, List.cons_append, List.nil_append]
  after_results
  rfl

/-- The second staged array is the target cloud with its batch axis dropped, transposed. -/
theorem V_v2 (c : Dev nD) :
    (V m c main_v2 : S3x4096.Idx → Elt F .f32)
      = transpose S3x4096 [1, 0]
          (shapeCast S4096x3 (m ((c.tc : Thread nD τ).loc main_arg1)) shapeCasts_S1x4096x3_S4096x3)
          transposes_S4096x3_S3x4096_1_0 := by
  dsimp only [Gen.V, Gen.V0]
  simp only [Gen.hostOps0, List.flatten_cons, List.flatten_nil, List.append_nil, List.cons_append, List.nil_append]
  after_results
  rfl

/-- Entry `(n, k)` of the first staged array is coordinate `k` of source point `n`. -/
theorem V_v0_apply (c : Dev nD) (n : Fin 4096) (k : Fin 3) :
    (V m c main_v0 : S4096x3.Idx → Elt F .f32) (ix2 n k)
      = m ((c.tc : Thread nD τ).loc main_arg0) (ix3 (0 : Fin 1) n k) :=
  (congrFun (V_v0 m c) (ix2 n k)).trans (flat3 (m ((c.tc : Thread nD τ).loc main_arg0)) n k)

/-- Entry `(k, n)` of the second staged array is coordinate `k` of target point `n`. -/
theorem V_v2_apply (c : Dev nD) (k : Fin 3) (n : Fin 4096) :
    (V m c main_v2 : S3x4096.Idx → Elt F .f32) (ix2 k n)
      = m ((c.tc : Thread nD τ).loc main_arg1) (ix3 (0 : Fin 1) n k) :=
  ((congrFun (V_v2 m c) (ix2 k n)).trans
    (tr_apply (shapeCast S4096x3 (m ((c.tc : Thread nD τ).loc main_arg1)) shapeCasts_S1x4096x3_S4096x3) k n)).trans
    (flat3 (m ((c.tc : Thread nD τ).loc main_arg1)) n k)

/-! ## The blocks -/

/-- Row `r` of block `t` is a row of the array: eight blocks of 512 rows. -/
theorem row_lt (t : Fin cfg0.N) (r : Fin 512) : 512 * t.val + r.val < 4096 := by
  have := t.isLt; have h8 : cfg0.N = 8 := N_0; have := r.isLt; omega

/-- The first window's block index at point `t` is `(t, 0)`. -/
theorem idx0 : ∀ t : Fin cfg0.N, win0_0.index t (0 : Fin 2) = t.val ∧ win0_0.index t (1 : Fin 2) = 0 :=
  (by decide +kernel : ∀ t : Fin grid0.N, _)

/-- The second window's block index is `(0, 0)` at every point. -/
theorem idx1 : ∀ t : Fin cfg0.N, win0_1.index t (0 : Fin 2) = 0 ∧ win0_1.index t (1 : Fin 2) = 0 :=
  (by decide +kernel : ∀ t : Fin grid0.N, _)

/-- An element of the first window's block at point `t` sits in the staged array at row `512·t + r`: on each axis
    the block index times the block's size plus the coordinate inside the block. -/
theorem iblk0_V (c : Dev nD) (t : Fin cfg0.N) (r : Fin 512) (k : Fin 3) :
    iblk m c 0 t (ix2 r k)
      = (V m c main_v0 : S4096x3.Idx → Elt F .f32) (ix2 (⟨512 * t.val + r.val, row_lt t r⟩ : Fin 4096) k) := by
  show (V m c main_v0 : S4096x3.Idx → Elt F .f32) (((cfg0.win 0).blk t).view.emb (ix2 r k)) = _
  obtain ⟨e0, e1⟩ := idx0 t
  refine congrArg (V m c main_v0 : S4096x3.Idx → Elt F .f32) ?_
  funext a; apply Fin.ext
  match a with
  | ⟨0, _⟩ => show win0_0.index t (0 : Fin 2) * 512 + 1 * r.val = 512 * t.val + r.val; omega
  | ⟨1, _⟩ => show win0_0.index t (1 : Fin 2) * 3 + 1 * k.val = k.val; omega

/-- The second window's block is the whole staged array at every point. -/
theorem iblk1_V (c : Dev nD) (t : Fin cfg0.N) (k : Fin 3) (n : Fin 4096) :
    iblk m c 1 t (ix2 k n) = (V m c main_v2 : S3x4096.Idx → Elt F .f32) (ix2 k n) := by
  show (V m c main_v2 : S3x4096.Idx → Elt F .f32) (((cfg0.win 1).blk t).view.emb (ix2 k n)) = _
  obtain ⟨e0, e1⟩ := idx1 t
  refine congrArg (V m c main_v2 : S3x4096.Idx → Elt F .f32) ?_
  funext a; apply Fin.ext
  match a with
  | ⟨0, _⟩ => show win0_1.index t (0 : Fin 2) * 3 + 1 * k.val = k.val; omega
  | ⟨1, _⟩ => show win0_1.index t (1 : Fin 2) * 4096 + 1 * n.val = n.val; omega

/-- Entry `(r, k)` of the first window's block at point `t` is coordinate `k` of source point `512·t + r`. -/
theorem iblk0_apply (c : Dev nD) (t : Fin cfg0.N) (r : Fin 512) (k : Fin 3) :
    iblk m c 0 t (ix2 r k)
      = m ((c.tc : Thread nD τ).loc main_arg0) (ix3 (0 : Fin 1) (⟨512 * t.val + r.val, row_lt t r⟩ : Fin 4096) k) :=
  (iblk0_V m c t r k).trans (V_v0_apply m c ⟨512 * t.val + r.val, row_lt t r⟩ k)

/-- Entry `(k, n)` of the second window's block, at any point, is coordinate `k` of target point `n`. -/
theorem iblk1_apply (c : Dev nD) (t : Fin cfg0.N) (k : Fin 3) (n : Fin 4096) :
    iblk m c 1 t (ix2 k n) = m ((c.tc : Thread nD τ).loc main_arg1) (ix3 (0 : Fin 1) n k) :=
  (iblk1_V m c t k n).trans (V_v2_apply m c k n)

end Cert.KernelIdeal.Blocks

end
-- ==== Proof.Spec.lean ====
/-
  The two nearest-neighbour arrays of a pair of clouds of 4096 points in three dimensions, as functions of the
  argument arrays over the extended reals. For points `a`, `b` the clipped squared distance is
  `max ((|a|² + |b|²) − 2·⟨a, b⟩) 0`; the forward array is, for each source point, its minimum over the target
  points, the backward array, for each target point, its minimum over the source points. The minima are folds of
  `min` from the printed word for +∞, the constants `2` and `0` the printed words: no word is evaluated.
-/
import Idealize.ShloMosaic.PureOps.Ideal
import Idealize.ShloMosaic.Lib.ValueIdx

noncomputable section

namespace Cert.Chamfer

open Idealize.ShloMosaic Idealize.ShloMosaic.ValueIdx

/-- The words the programs print for +∞, 2 and 0, read at the ideal instance. -/
abbrev inf32 : EReal := Ideal.ofBits .f32 0x7F800000#32
abbrev two32 : EReal := Ideal.ofBits .f32 0x40000000#32
abbrev zero32 : EReal := Ideal.ofBits .f32 0x00000000#32

/-- The squared norm of a point, summed left to right. -/
def sq (a : Fin 3 → EReal) : EReal := (a 0 * a 0 + a 1 * a 1) + a 2 * a 2

/-- The inner product of two points, summed left to right. -/
def dot3 (a b : Fin 3 → EReal) : EReal := (a 0 * b 0 + a 1 * b 1) + a 2 * b 2

/-- The clipped squared distance of two points. -/
def dist (a b : Fin 3 → EReal) : EReal := max ((sq a + sq b) - two32 * dot3 a b) zero32

/-- A cloud as the programs take it: one batch of 4096 points of 3 coordinates. -/
abbrev Cloud : Type := (⟨3, ![1, 4096, 3]⟩ : Shape).Idx → EReal

/-- Point `n` of a cloud. -/
def pt (x : Cloud) (n : Fin 4096) : Fin 3 → EReal := fun k => x (ix3 (0 : Fin 1) n k)

/-- For each source point, the least clipped squared distance to a target point. -/
def fwd (src tgt : Cloud) : (⟨1, ![4096]⟩ : Shape).Idx → EReal := fun i =>
  (Finset.univ : Finset (Fin 4096)).fold min inf32 (fun m => dist (pt src (i 0)) (pt tgt m))

/-- For each target point, the least clipped squared distance to a source point. -/
def bwd (src tgt : Cloud) : (⟨1, ![4096]⟩ : Shape).Idx → EReal := fun i =>
  (Finset.univ : Finset (Fin 4096)).fold min inf32 (fun n => dist (pt src n) (pt tgt (i 0)))

/-- A fold of `min` is characterised by its lower bounds. -/
theorem le_foldMin {ι : Type*} (s : Finset ι) (c : EReal) (f : ι → EReal) (x : EReal) :
    x ≤ s.fold min c f ↔ x ≤ c ∧ ∀ i ∈ s, x ≤ f i := Finset.le_fold_min x

end Cert.Chamfer

end
-- ==== Proof.PayIdx.lean ====
/-
  The kernel's stored values read at an index, over the extended reals, and the algebra of a minimum taken block by
  block.

  The kernel works on a block of 512 source points `x0` (point × coordinate) against the whole target cloud `x1`,
  transposed (coordinate × point). Its arithmetic forms, entrywise over the 512 × 4096 pairs, the two squared norms
  less twice the inner product (`pay5_apply`), clips at the printed zero, and takes the row minima (`pay2_apply`:
  for each source point of the block, the least clipped squared distance to a target point) and the column minima
  (`pay3_apply`: for each target point, the least clipped squared distance to a source point of the block); a later
  block folds its column minima into what is already stored (`pay4_apply`). Each layout operation — a slice of one
  column or one row, a broadcast along the other axis, a reshape that adds a unit axis — reads one entry of its
  operand; each minimum is a fold of `min` from the printed word for +∞ over the reduced axis. No word is evaluated.

  Last, `fold_blocks`: the fold of `min` over 4096 points equals the minimum of the folds over its eight consecutive
  blocks of 512, because both have the same lower bounds.
-/
import proofs.«167455_g14620068675781_cont_week2b_1446_3_alg».proof.Proof.Spec
import proofs.«167455_g14620068675781_cont_week2b_1446_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Chamfer.Pay

open Idealize.ShloMosaic Idealize.ShloMosaic.ValueIdx Cert.KernelIdeal Cert.KernelIdeal.Gen Cert.Chamfer

/-! ## Layout operations of the kernel read at an index -/

/-- Column `k` of a block of 512 points (the slice at offsets `[0, k]` of sizes `[512, 1]`) read at row `r`. -/
theorem col_apply {α : Type} (off : Fin S512x3.rank → Nat) (k : Fin 3) (h0 : off 0 = 0) (h1 : off 1 = k.val)
    (x : S512x3.Idx → α) (h : S512x3.Slices off S512x1) (r : Fin 512) (z : Fin 1) :
    extractStridedSlice S512x1 off x h (ix2 r z) = x (ix2 r k) :=
  extractStridedSlice_apply off x h _ _ (fun a => match a with
    | ⟨0, _⟩ => by show r.val = off 0 + r.val; omega
    | ⟨1, _⟩ => by show k.val = off 1 + z.val; have := z.isLt; omega)

/-- Row `k` of the transposed target cloud (the slice at offsets `[k, 0]` of sizes `[1, 4096]`) read at point `m`. -/
theorem row_apply {α : Type} (off : Fin S3x4096.rank → Nat) (k : Fin 3) (h0 : off 0 = k.val) (h1 : off 1 = 0)
    (x : S3x4096.Idx → α) (h : S3x4096.Slices off S1x4096) (z : Fin 1) (m : Fin 4096) :
    extractStridedSlice S1x4096 off x h (ix2 z m) = x (ix2 k m) :=
  extractStridedSlice_apply off x h _ _ (fun a => match a with
    | ⟨0, _⟩ => by show k.val = off 0 + z.val; have := z.isLt; omega
    | ⟨1, _⟩ => by show m.val = off 1 + m.val; omega)

/-- A column broadcast along the points of the target reads its row. -/
theorem bcol_apply {α : Type} (x : S512x1.Idx → α) (h : S512x1.Broadcasts S512x4096) (r : Fin 512) (m : Fin 4096) :
    broadcastTo S512x4096 x h (ix2 r m) = x (ix2 r (0 : Fin 1)) :=
  broadcastTo_apply x h _ _ (fun a => match a with
    | ⟨0, _⟩ => rfl
    | ⟨1, _⟩ => rfl)

/-- A row broadcast along the points of the source reads its column. -/
theorem brow_apply {α : Type} (x : S1x4096.Idx → α) (h : S1x4096.Broadcasts S512x4096) (r : Fin 512) (m : Fin 4096) :
    broadcastTo S512x4096 x h (ix2 r m) = x (ix2 (0 : Fin 1) m) :=
  broadcastTo_apply x h _ _ (fun a => match a with
    | ⟨0, _⟩ => rfl
    | ⟨1, _⟩ => rfl)

theorem col0_apply {α : Type} (x : S512x3.Idx → α) (h : S512x3.Slices ![0, 0] S512x1) (r : Fin 512) (z : Fin 1) :
    extractStridedSlice S512x1 ![0, 0] x h (ix2 r z) = x (ix2 r (0 : Fin 3)) := col_apply _ 0 rfl rfl x h r z
theorem col1_apply {α : Type} (x : S512x3.Idx → α) (h : S512x3.Slices ![0, 1] S512x1) (r : Fin 512) (z : Fin 1) :
    extractStridedSlice S512x1 ![0, 1] x h (ix2 r z) = x (ix2 r (1 : Fin 3)) := col_apply _ 1 rfl rfl x h r z
theorem col2_apply {α : Type} (x : S512x3.Idx → α) (h : S512x3.Slices ![0, 2] S512x1) (r : Fin 512) (z : Fin 1) :
    extractStridedSlice S512x1 ![0, 2] x h (ix2 r z) = x (ix2 r (2 : Fin 3)) := col_apply _ 2 rfl rfl x h r z
theorem row0_apply {α : Type} (x : S3x4096.Idx → α) (h : S3x4096.Slices ![0, 0] S1x4096) (z : Fin 1) (m : Fin 4096) :
    extractStridedSlice S1x4096 ![0, 0] x h (ix2 z m) = x (ix2 (0 : Fin 3) m) := row_apply _ 0 rfl rfl x h z m
theorem row1_apply {α : Type} (x : S3x4096.Idx → α) (h : S3x4096.Slices ![1, 0] S1x4096) (z : Fin 1) (m : Fin 4096) :
    extractStridedSlice S1x4096 ![1, 0] x h (ix2 z m) = x (ix2 (1 : Fin 3) m) := row_apply _ 1 rfl rfl x h z m
theorem row2_apply {α : Type} (x : S3x4096.Idx → α) (h : S3x4096.Slices ![2, 0] S1x4096) (z : Fin 1) (m : Fin 4096) :
    extractStridedSlice S1x4096 ![2, 0] x h (ix2 z m) = x (ix2 (2 : Fin 3) m) := row_apply _ 2 rfl rfl x h z m

/-! ## The cross term read at an index -/

/-- Entry `(r, m)` of the block of unclipped squared distances: the two squared norms less twice the inner product. -/
theorem pay5_apply (x0 : Vec Ideal S512x3 .f32) (x1 : Vec Ideal S3x4096 .f32) (r : Fin 512) (m : Fin 4096) :
    k0_pay5 (F := Ideal) x0 x1 (ix2 r m)
      = (sq (fun k : Fin 3 => x0 (ix2 r k)) + sq (fun k : Fin 3 => x1 (ix2 k m)))
          - two32 * dot3 (fun k : Fin 3 => x0 (ix2 r k)) (fun k : Fin 3 => x1 (ix2 k m)) := by
  unfold k0_pay5
  simp only [shapeCast_self, subf_apply, addf_apply, mulf_apply, broadcast_apply, bcol_apply, brow_apply,
    col0_apply, col1_apply, col2_apply, row0_apply, row1_apply, row2_apply]
  rfl

/-! ## The minima read at an index -/

/-- A `vector.multi_reduction <minimumf>` over one axis, read at the ideal instance: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- Row `r` with column `m` inserted is the entry `(r, m)`. -/
theorem lift_row (h : S512x4096.Reduces [1] S512) (r : Fin 512) (m : Fin 4096) : h.lift (ix1 r) m = ix2 r m := by
  funext c
  match c with
  | ⟨0, _⟩ => exact Fin.ext rfl
  | ⟨1, _⟩ => exact Fin.ext rfl

/-- Column `m` with row `r` inserted is the entry `(r, m)`. -/
theorem lift_col (h : S512x4096.Reduces [0] S4096) (m : Fin 4096) (r : Fin 512) : h.lift (ix1 m) r = ix2 r m := by
  funext c
  match c with
  | ⟨0, _⟩ => exact Fin.ext rfl
  | ⟨1, _⟩ => exact Fin.ext rfl

/-- The row minima of the clipped block, at row `r`. -/
theorem pay2_read (v52 : FVec Ideal S512x4096 .f32) (c : Ideal .f32) (r : Fin 512) :
    k0_pay2 (F := Ideal) v52 c (ix2 r (0 : Fin 1))
      = (Finset.univ : Finset (Fin 4096)).fold min inf32 (fun m => max (v52 (ix2 r m)) c) := by
  unfold k0_pay2
  refine (shapeCast_apply _ shapeCasts_S512_S512x1 (ix2 r (0 : Fin 1)) (ix1 r) ?_).trans ?_
  · rw [Shape.rowMajor_val_two, Shape.rowMajor_val_one]; show r.val = r.val * 1 + 0; omega
  refine (multiReduction_minimumf_single _ _ _ _ _ _).trans ?_
  refine Finset.fold_congr (fun (m : Fin 4096) _ => ?_)
  exact congrArg (k0_pay1 v52 c) (lift_row reduces_S512x4096_S512 r m)

/-- The column minima of the clipped block, at column `m`. -/
theorem pay3_read (v52 : FVec Ideal S512x4096 .f32) (c : Ideal .f32) (m : Fin 4096) :
    k0_pay3 (F := Ideal) v52 c (ix2 (0 : Fin 1) m)
      = (Finset.univ : Finset (Fin 512)).fold min inf32 (fun r => max (v52 (ix2 r m)) c) := by
  unfold k0_pay3
  refine (shapeCast_apply _ shapeCasts_S4096_S1x4096 (ix2 (0 : Fin 1) m) (ix1 m) ?_).trans ?_
  · rw [Shape.rowMajor_val_two, Shape.rowMajor_val_one]; show m.val = 0 * 4096 + m.val; omega
  refine (multiReduction_minimumf_single _ _ _ _ _ _).trans ?_
  refine Finset.fold_congr (fun (r : Fin 512) _ => ?_)
  exact congrArg (k0_pay1 v52 c) (lift_col reduces_S512x4096_S4096 m r)

/-! ## The three stored payloads read at an index -/

/-- The forward block: at source row `r`, the least clipped squared distance to a target point. -/
theorem pay2_apply (x0 : Vec Ideal S512x3 .f32) (x1 : Vec Ideal S3x4096 .f32) (r : Fin 512) :
    k0_pay2 (F := Ideal) (k0_pay5 (F := Ideal) x0 x1) (Scalar.ofBits .f32 0x00000000#32) (ix2 r (0 : Fin 1))
      = (Finset.univ : Finset (Fin 4096)).fold min inf32
          (fun m => dist (fun k : Fin 3 => x0 (ix2 r k)) (fun k : Fin 3 => x1 (ix2 k m))) := by
  refine (pay2_read _ _ r).trans (Finset.fold_congr (fun m _ => ?_))
  rw [pay5_apply]
  rfl

/-- The backward block: at target point `m`, the least clipped squared distance to a source point of the block. -/
theorem pay3_apply (x0 : Vec Ideal S512x3 .f32) (x1 : Vec Ideal S3x4096 .f32) (m : Fin 4096) :
    k0_pay3 (F := Ideal) (k0_pay5 (F := Ideal) x0 x1) (Scalar.ofBits .f32 0x00000000#32) (ix2 (0 : Fin 1) m)
      = (Finset.univ : Finset (Fin 512)).fold min inf32
          (fun r => dist (fun k : Fin 3 => x0 (ix2 r k)) (fun k : Fin 3 => x1 (ix2 k m))) := by
  refine (pay3_read _ _ m).trans (Finset.fold_congr (fun r _ => ?_))
  rw [pay5_apply]
  rfl

/-- The accumulated backward block: the minimum of what was there and the block's column minima. -/
theorem pay4_apply (v52 : FVec Ideal S512x4096 .f32) (c : Ideal .f32) (xo : Vec Ideal S1x4096 .f32) (j : S1x4096.Idx) :
    k0_pay4 (F := Ideal) v52 c xo j = min (xo j) (k0_pay3 (F := Ideal) v52 c j) := by
  unfold k0_pay4
  simp only [shapeCast_self]
  rfl

/-! ## A minimum over 4096 points as the minimum of eight blocks of 512 -/

/-- The fold of `min` over 4096 points is the minimum of the folds over its eight consecutive blocks of 512 points:
    both sides have the same lower bounds. -/
theorem fold_blocks (c : EReal) (f : Fin 4096 → EReal) (g : Fin 8 → EReal)
    (hg : ∀ b : Fin 8, g b = (Finset.univ : Finset (Fin 512)).fold min c (fun r => f ⟨512 * b.val + r.val, by omega⟩)) :
    min (min (min (min (min (min (min (g 0) (g 1)) (g 2)) (g 3)) (g 4)) (g 5)) (g 6)) (g 7)
      = (Finset.univ : Finset (Fin 4096)).fold min c f := by
  have key : ∀ x : EReal, (∀ b : Fin 8, x ≤ g b) ↔ x ≤ (Finset.univ : Finset (Fin 4096)).fold min c f := by
    intro x
    rw [le_foldMin]
    constructor
    · intro h
      have h0 := h 0
      rw [hg, le_foldMin] at h0
      refine ⟨h0.1, fun n _ => ?_⟩
      have hb : n.val / 512 < 8 := by omega
      have hr : n.val % 512 < 512 := by omega
      have h1 := h ⟨n.val / 512, hb⟩
      rw [hg, le_foldMin] at h1
      have h2 := h1.2 ⟨n.val % 512, hr⟩ (Finset.mem_univ _)
      simpa [Nat.div_add_mod] using h2
    · rintro ⟨hc, hf⟩ b
      rw [hg b, le_foldMin]
      exact ⟨hc, fun r _ => hf _ (Finset.mem_univ _)⟩
  refine eq_of_forall_le_iff (fun x => ?_)
  rw [← key x]
  simp only [le_min_iff]
  constructor
  · rintro ⟨⟨⟨⟨⟨⟨⟨h0, h1⟩, h2⟩, h3⟩, h4⟩, h5⟩, h6⟩, h7⟩ b
    fin_cases b
    · exact h0
    · exact h1
    · exact h2
    · exact h3
    · exact h4
    · exact h5
    · exact h6
    · exact h7
  · intro h
    exact ⟨⟨⟨⟨⟨⟨⟨h 0, h 1⟩, h 2⟩, h 3⟩, h 4⟩, h 5⟩, h 6⟩, h 7⟩

/-- The same with the eight block minima accumulated one at a time. -/
theorem fold_blocks_rec (c : EReal) (f : Fin 4096 → EReal) (g : Fin 8 → EReal)
    (hg : ∀ b : Fin 8, g b = (Finset.univ : Finset (Fin 512)).fold min c (fun r => f ⟨512 * b.val + r.val, by omega⟩))
    (acc : ℕ → EReal) (h0 : acc 0 = g 0)
    (hs : ∀ (n : ℕ) (h : n + 1 < 8), acc (n + 1) = min (acc n) (g ⟨n + 1, h⟩)) :
    acc 7 = (Finset.univ : Finset (Fin 4096)).fold min c f := by
  rw [← fold_blocks c f g hg, hs 6 (by omega), hs 5 (by omega), hs 4 (by omega), hs 3 (by omega), hs 2 (by omega),
    hs 1 (by omega), hs 0 (by omega), h0]
  rfl

end Cert.Chamfer.Pay

end
-- ==== Proof.Final.lean ====
/-
  What the idealized distance kernel's two result arrays hold after the run, as the specification's functions of the
  two argument clouds.
  Forward: the block written back at grid point `t` holds, at row `r`, the minimum over all target points of the
  clipped squared distance from source point `512·t + r`; the eight blocks tile the [4096, 1] array, so the array
  holds the forward function at every index. Backward: the buffer written back once, after the last point, holds the
  running minimum of the eight blocks' column minima, which is the minimum over all 4096 source points (a fold of
  `min` over 4096 points is the minimum of the folds over its eight blocks of 512); its one block is the whole
  [1, 4096] array. The two reshapes after the region flatten these to the results.
-/
import proofs.«167455_g14620068675781_cont_week2b_1446_3_alg».proof.Proof.BodyIdeal
import proofs.«167455_g14620068675781_cont_week2b_1446_3_alg».proof.Proof.Blocks
import proofs.«167455_g14620068675781_cont_week2b_1446_3_alg».proof.Proof.PayIdx
import Idealize.ShloMosaic.Lib.Pipeline.Value
import Idealize.ShloMosaic.Lib.StableHlo.Run
import Idealize.ShloMosaic.Lib.Tactic

set_option maxRecDepth 16384

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.Blocks Cert.Chamfer Cert.Chamfer.Pay

variable (m : (ℓ : Loc nD τ sig) → Buf (Elt Ideal) ℓ) (ρ : Dev nD → PrngReg)

/-- The two clouds as launched. -/
abbrev src (c : Dev nD) : Cloud := m ((c.tc : Thread nD τ).loc main_arg0)
abbrev tgt (c : Dev nD) : Cloud := m ((c.tc : Thread nD τ).loc main_arg1)

theorem hN : cfg0.N = 8 := N_0

/-! ## The forward buffer after a point -/

/-- Row `r` of the forward buffer after point `t` is the forward function at source point `512·t + r`. -/
theorem rowMin_apply (c : Dev nD) (t : Fin cfg0.N) (r : Fin 512) :
    rowMin m c t (ix2 r (0 : Fin 1)) = fwd (src m c) (tgt m c) (ix1 (⟨512 * t.val + r.val, row_lt t r⟩ : Fin 4096)) := by
  unfold rowMin
  refine (pay2_apply (iblk m c 0 t) (iblk m c 1 t) r).trans ?_
  unfold fwd
  refine Finset.fold_congr (fun n _ => ?_)
  unfold pt
  congr 1
  · funext k; exact iblk0_apply m c t r k
  · funext k; exact iblk1_apply m c t k n

/-- The same at any index of the [512, 1] block. -/
theorem rowMin_at (c : Dev nD) (t : Fin cfg0.N) (j : S512x1.Idx) :
    rowMin m c t j = fwd (src m c) (tgt m c) (ix1 (⟨512 * t.val + (j 0).val, row_lt t (j 0)⟩ : Fin 4096)) := by
  have hj : j = ix2 (j 0 : Fin 512) (0 : Fin 1) := by
    funext a; match a with | ⟨0, _⟩ => rfl | ⟨1, _⟩ => exact Subsingleton.elim (α := Fin 1) _ _
  exact (congrArg (rowMin m c t) hj).trans (rowMin_apply m c t (j 0))

/-! ## The backward buffer after a point -/

/-- The least clipped squared distance from target point `n` to a source point of block `b`. -/
def blockMin (c : Dev nD) (b : Fin 8) (n : Fin 4096) : EReal :=
  (Finset.univ : Finset (Fin 512)).fold min inf32
    (fun r => dist (pt (src m c) ⟨512 * b.val + r.val, by omega⟩) (pt (tgt m c) n))

/-- A point's column minima are its block's. -/
theorem pay3_block (c : Dev nD) (t : Fin cfg0.N) (n : Fin 4096) :
    k0_pay3 (F := Ideal) (k0_pay5 (F := Ideal) (iblk m c 0 t) (iblk m c 1 t)) zeroW (ix2 (0 : Fin 1) n)
      = blockMin m c ⟨t.val, lt_of_lt_of_eq t.isLt hN⟩ n := by
  refine (pay3_apply (iblk m c 0 t) (iblk m c 1 t) n).trans ?_
  unfold blockMin
  refine Finset.fold_congr (fun r _ => ?_)
  unfold pt
  congr 1
  · funext k; exact iblk0_apply m c t r k
  · funext k; exact iblk1_apply m c t k n

theorem colAcc_zero (c : Dev nD) (h : 0 < cfg0.N) (n : Fin 4096) :
    colAcc m c 0 h (ix2 (0 : Fin 1) n) = blockMin m c 0 n :=
  pay3_block m c ⟨0, h⟩ n

theorem colAcc_succ (c : Dev nD) (k : ℕ) (h : k + 1 < cfg0.N) (n : Fin 4096) :
    colAcc m c (k + 1) h (ix2 (0 : Fin 1) n)
      = min (colAcc m c k (Nat.lt_of_succ_lt h) (ix2 (0 : Fin 1) n)) (blockMin m c ⟨k + 1, lt_of_lt_of_eq h hN⟩ n) := by
  show k0_pay4 (F := Ideal) (k0_pay5 (F := Ideal) (iblk m c 0 ⟨k + 1, h⟩) (iblk m c 1 ⟨k + 1, h⟩)) zeroW
    (colAcc m c k (Nat.lt_of_succ_lt h)) (ix2 (0 : Fin 1) n) = _
  refine (pay4_apply _ _ _ _).trans ?_
  exact congrArg (min _) (pay3_block m c ⟨k + 1, h⟩ n)

/-- After the last point the backward buffer holds, at target point `n`, the backward function. -/
theorem colAcc_last (c : Dev nD) (h7 : 7 < cfg0.N) (n : Fin 4096) :
    colAcc m c 7 h7 (ix2 (0 : Fin 1) n) = bwd (src m c) (tgt m c) (ix1 n) := by
  have hN' : cfg0.N = 8 := hN
  have key := fold_blocks_rec inf32 (fun s : Fin 4096 => dist (pt (src m c) s) (pt (tgt m c) n)) (fun b => blockMin m c b n)
    (fun b => rfl) (fun k => if h : k < cfg0.N then colAcc m c k h (ix2 (0 : Fin 1) n) else 0)
    (by rw [dif_pos (show 0 < cfg0.N by omega)]; exact colAcc_zero m c _ n)
    (fun k hk => by
      rw [dif_pos (show k + 1 < cfg0.N by omega), dif_pos (show k < cfg0.N by omega)]
      exact colAcc_succ m c k _ n)
  rw [dif_pos h7] at key
  exact key

/-- The same at any index of the [1, 4096] block. -/
theorem colAcc_at (c : Dev nD) (h7 : 7 < cfg0.N) (j : S1x4096.Idx) :
    colAcc m c 7 h7 j = bwd (src m c) (tgt m c) (ix1 (⟨(j 1).val, (j 1).isLt⟩ : Fin 4096)) := by
  have hj : j = ix2 (0 : Fin 1) (j 1 : Fin 4096) := by
    funext a; match a with | ⟨0, _⟩ => exact Subsingleton.elim (α := Fin 1) _ _ | ⟨1, _⟩ => rfl
  exact (congrArg (colAcc m c 7 h7) hj).trans (colAcc_last m c h7 (j 1))

/-! ## From blocks to arrays -/

/-- What the forward array ends holding. -/
abbrev G2 (c : Dev nD) : S4096x1.Idx → EReal :=
  fun i => fwd (src m c) (tgt m c) (ix1 (⟨(i 0).val, (i 0).isLt⟩ : Fin 4096))
/-- What the backward array ends holding. -/
abbrev G3 (c : Dev nD) : S1x4096.Idx → EReal :=
  fun i => bwd (src m c) (tgt m c) (ix1 (⟨(i 1).val, (i 1).isLt⟩ : Fin 4096))

/-- The output windows' index maps over the grid: the forward window moves down with the point, the backward window
    stays on its one block. -/
theorem idx_out : ∀ t : Fin cfg0.N, win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- What point `t` writes back into the forward array is block `t` of the forward function. -/
theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after_2]
  obtain ⟨e0, e1, -, -⟩ := idx_out t
  funext j
  show rowMin m c t j = G2 m c (((cfg0.win 2).blk t).view.emb j)
  refine (rowMin_at m c t j).trans ?_
  show fwd _ _ (ix1 _) = fwd _ _ (ix1 _)
  congr 2
  apply Fin.ext
  show 512 * t.val + (j 0).val = win0_2.index t (0 : Fin 2) * 512 + 1 * (j 0).val
  rw [e0]; omega

/-- An index of the forward array is in point `t`'s block iff each coordinate is in the block's range on its axis. -/
theorem mem_blk2 (t : Fin cfg0.N) (i : S4096x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v3_0).slice (win0_2.rect t)).set ↔ _
  rw [View.set_slice_whole, Rect.mem_set_unit]
  exact Iff.rfl

/-- The forward array after the run: row `i` lies in the block of point `i / 512`. -/
theorem final2 (c : Dev nD) : (dats m 0 c).arrAt 2 cfg0.N = G2 m c :=
  (dats m 0 c).arrAt_eq_of_cover 2 (G2 m c) (fun t _ => flushed2_eq m c t) (fun i => by
    have hi0 : (i 0).val < 4096 := (i 0).isLt
    have hi1 : (i 1).val < 1 := (i 1).isLt
    have hN' : cfg0.N = 8 := hN
    have hq : (i 0).val / 512 < cfg0.N := by omega
    refine ⟨⟨(i 0).val / 512, hq⟩, flush0_2 _, ?_⟩
    rw [mem_blk2]
    obtain ⟨e0, e1, -, -⟩ := idx_out ⟨(i 0).val / 512, hq⟩
    intro a
    match a with
    | ⟨0, _⟩ =>
      show win0_2.index ⟨(i 0).val / 512, hq⟩ (0 : Fin 2) * 512 ≤ (i 0).val ∧ (i 0).val < win0_2.index ⟨(i 0).val / 512, hq⟩ (0 : Fin 2) * 512 + 512
      rw [e0]; dsimp only; omega
    | ⟨1, _⟩ =>
      show win0_2.index ⟨(i 0).val / 512, hq⟩ (1 : Fin 2) * 1 ≤ (i 1).val ∧ (i 1).val < win0_2.index ⟨(i 0).val / 512, hq⟩ (1 : Fin 2) * 1 + 1
      rw [e1]; omega)

/-- The one write-back of the backward buffer, after the last point, writes the backward function. -/
theorem flushed3_eq (c : Dev nD) (t : Fin cfg0.N) (hf : (cfg0.win 3).flush t = true) :
    (dats m 0 c).flushed 3 t = ((cfg0.win 3).blk t).view.read (Elt Ideal) (G3 m c) := by
  have hN' : cfg0.N = 8 := hN
  have h7 : t.val = 7 := by have := (flush0_3 t).mp hf; have := t.isLt; omega
  show (cfg0.win 3).cut (grid0.coords t) ((dats m 0 c).after 3 t) = _
  rw [after_3]
  obtain ⟨-, -, e0, e1⟩ := idx_out t
  obtain ⟨tv, ht⟩ := t
  dsimp only at h7
  subst h7
  funext j
  show colAcc m c 7 ht j = G3 m c (((cfg0.win 3).blk ⟨7, ht⟩).view.emb j)
  refine (colAcc_at m c ht j).trans ?_
  show bwd _ _ (ix1 _) = bwd _ _ (ix1 _)
  congr 2
  apply Fin.ext
  show (j 1).val = win0_3.index ⟨7, ht⟩ (1 : Fin 2) * 4096 + 1 * (j 1).val
  rw [e1]; omega

theorem mem_blk3 (t : Fin cfg0.N) (i : S1x4096.Idx) :
    i ∈ ((cfg0.win 3).blk t).view.set ↔ ∀ a : Fin 2, win0_3.index t a * S1x4096.size a ≤ (i a).val ∧ (i a).val < win0_3.index t a * S1x4096.size a + S1x4096.size a := by
  show i ∈ ((View.whole main_v3_1).slice (win0_3.rect t)).set ↔ _
  rw [View.set_slice_whole, Rect.mem_set_unit]
  exact Iff.rfl

/-- The backward array after the run: the last point's block is the whole array. -/
theorem final3 (c : Dev nD) : (dats m 0 c).arrAt 3 cfg0.N = G3 m c :=
  (dats m 0 c).arrAt_eq_of_cover 3 (G3 m c) (flushed3_eq m c) (fun i => by
    have hi0 : (i 0).val < 1 := (i 0).isLt
    have hi1 : (i 1).val < 4096 := (i 1).isLt
    refine ⟨t0_7, (flush0_3 t0_7).mpr rfl, ?_⟩
    rw [mem_blk3]
    obtain ⟨-, -, e0, e1⟩ := idx_out t0_7
    intro a
    match a with
    | ⟨0, _⟩ =>
      show win0_3.index t0_7 (0 : Fin 2) * 1 ≤ (i 0).val ∧ (i 0).val < win0_3.index t0_7 (0 : Fin 2) * 1 + 1
      rw [e0]; omega
    | ⟨1, _⟩ =>
      show win0_3.index t0_7 (1 : Fin 2) * 4096 ≤ (i 1).val ∧ (i 1).val < win0_3.index t0_7 (1 : Fin 2) * 4096 + 4096
      rw [e1]; omega)

/-! ## The results -/

/-- The first result is the forward array flattened: the forward function. -/
theorem tail_v4 (c : Dev nD) :
    Pipeline.afterTail₀ cfgs (dats m) 0 (V0 m) [hostOps1] c main_v4 = fwd (src m c) (tgt m c) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3_0) = G2 m c :=
    (Pipeline.withArrays_arr spec0 launch0.win.arr_inj c (V0 m c) (fun w => (dats m 0 c).arrAt w (cfgs 0).N) 2).trans (final2 m c)
  funext i
  obtain ⟨n, rfl⟩ : ∃ n : Fin 4096, i = ix1 n := ⟨i 0, eq_ix1 i⟩
  show shapeCast S4096 (Pipeline.withArrays (cfgs 0).spec c (V0 m c) (fun w => (dats m 0 c).arrAt w (cfgs 0).N) (Proc.devRef .tc main_v3_0)) shapeCasts_S4096x1_S4096 (ix1 n) = _
  rw [hw]
  exact col_flat (F := Ideal) (G2 m c) n

/-- The second result is the backward array flattened: the backward function. -/
theorem tail_v5 (c : Dev nD) :
    Pipeline.afterTail₀ cfgs (dats m) 0 (V0 m) [hostOps1] c main_v5 = bwd (src m c) (tgt m c) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v3_1) = G3 m c :=
    (Pipeline.withArrays_arr spec0 launch0.win.arr_inj c (V0 m c) (fun w => (dats m 0 c).arrAt w (cfgs 0).N) 3).trans (final3 m c)
  funext i
  obtain ⟨n, rfl⟩ : ∃ n : Fin 4096, i = ix1 n := ⟨i 0, eq_ix1 i⟩
  show shapeCast S4096 (Pipeline.withArrays (cfgs 0).spec c (V0 m c) (fun w => (dats m 0 c).arrAt w (cfgs 0).N) (Proc.devRef .tc main_v3_1)) shapeCasts_S1x4096_S4096 (ix1 n) = _
  rw [hw]
  exact row_flat (F := Ideal) (G3 m c) n

/-- The run, read: both results at the specification's functions of the argument clouds, the arguments unchanged. -/
theorem run : θ_run defs (onTc (τ := τ) (main (F := Ideal))) ⟨m, fun _ => 0, ρ⟩ (fun r => ∀ c : Dev nD,
      r.2.mem ((c.tc : Thread nD τ).loc main_v4) = fwd (src m c) (tgt m c)
      ∧ r.2.mem ((c.tc : Thread nD τ).loc main_v5) = bwd (src m c) (tgt m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨
      ((h c).2 main_v4 (Pipeline.mem_restRefs_of main_v4 (by decide) (by decide))).trans (tail_v4 m c),
      ((h c).2 main_v5 (Pipeline.mem_restRefs_of main_v5 (by decide) (by decide))).trans (tail_v5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Final

end
-- ==== Proof.RefRead.lean ====
/-
  The reference program read as mathematics. Its first result is, for each source point, the minimum over the target
  points of the clipped squared distance `max ((|a|² + |b|²) − 2·⟨a, b⟩) 0`; its second result, for each target point,
  the minimum over the source points of the same quantity computed with the two clouds exchanged, which is the same
  distance because the sum of the squared norms and the inner product are symmetric. Each entry of the distance matrix
  is read through the per-operation reading lemmas of the generated module: a squared norm is the printed zero plus a
  three-term sum, an inner product a three-term sum, a broadcast reads its operand at the matching coordinates. Each
  min-reduction over the last axis is a fold of `min` from the printed word for +∞ over that axis's 4096 coordinates,
  because `min` is commutative and associative. Only commutativity of `+` and `*`, `0 + x = x` and the three-term
  expansion of a sum over `Fin 3` are used; no word other than the printed zero is evaluated.
-/
import proofs.«167455_g14620068675781_cont_week2b_1446_3_alg».proof.Proof.Gen.ReferenceIdeal.Read
import proofs.«167455_g14620068675781_cont_week2b_1446_3_alg».proof.Proof.Spec
import Idealize.ShloMosaic.Lib.ValueIdx
import Idealize.ShloMosaic.PureOps.Ideal.Laws

noncomputable section

namespace Cert.Chamfer.Ref

open Cert.ReferenceIdeal Cert.ReferenceIdeal.Read Idealize.ShloMosaic Idealize.ShloMosaic.ValueIdx
open Cert.Chamfer

/-! ### The algebra: three-term sums are the squared norm and the inner product -/

/-- The printed zero plus the three squares, summed left to right, is the squared norm. -/
theorem sum3_sq (a : Fin 3 → EReal) : zero32 + ∑ k : Fin 3, a k * a k = sq a := by
  rw [show zero32 = 0 from Ideal.ofBits_zero_f32, zero_add, Fin.sum_univ_three]; rfl

/-- The three products, summed left to right, are the inner product. -/
theorem sum3_dot (a b : Fin 3 → EReal) : ∑ k : Fin 3, a k * b k = dot3 a b := by
  rw [Fin.sum_univ_three]; rfl

/-- The inner product is symmetric. -/
theorem dot3_comm (a b : Fin 3 → EReal) : dot3 b a = dot3 a b := by
  unfold dot3; rw [mul_comm (b 0), mul_comm (b 1), mul_comm (b 2)]

/-- The clipped squared distance computed with the two points exchanged is the same distance. -/
theorem dist_swap (a b : Fin 3 → EReal) : max ((sq b + sq a) - two32 * dot3 b a) zero32 = dist a b := by
  unfold dist; rw [add_comm (sq b), dot3_comm]

/-! ### The forward half: entry `(n, m)` of the distance matrix -/

/-- The broadcast squared norms of the source points, at `(n, m)`: the squared norm of source point `n`. -/
theorem v7_read (x0 : (⟨S1x4096x3, .f32⟩ : BufTy).Contents (Elt Ideal)) (n m : Fin 4096) :
    val_main_v7 (F := Ideal) x0 (ix3 (0 : Fin 1) n m) = sq (pt x0 n) := by
  rw [val_main_v7_apply, val_main_v5_apply, val_main_v1_apply, val_main_cst_apply]
  refine Eq.trans (congrArg (_ + ·) (Finset.sum_congr rfl fun k _ => ?_)) (sum3_sq (pt x0 n))
  rw [val_main_v0_apply]
  have e : idx_main_v1 (idx_main_v5 (idx_main_v7 (ix3 (0 : Fin 1) n m))) k = ix3 (0 : Fin 1) n k :=
    funext fun a => Fin.ext (by match a with | ⟨0, _⟩ => rfl | ⟨1, _⟩ => rfl | ⟨2, _⟩ => rfl)
  rw [e]; rfl

/-- The broadcast squared norms of the target points, at `(n, m)`: the squared norm of target point `m`. -/
theorem v8_read (x1 : (⟨S1x4096x3, .f32⟩ : BufTy).Contents (Elt Ideal)) (n m : Fin 4096) :
    val_main_v8 (F := Ideal) x1 (ix3 (0 : Fin 1) n m) = sq (pt x1 m) := by
  rw [val_main_v8_apply, val_main_v6_apply, val_main_v3_apply, val_main_cst_0_apply]
  refine Eq.trans (congrArg (_ + ·) (Finset.sum_congr rfl fun k _ => ?_)) (sum3_sq (pt x1 m))
  rw [val_main_v2_apply]
  have e : idx_main_v3 (idx_main_v6 (idx_main_v8 (ix3 (0 : Fin 1) n m))) k = ix3 (0 : Fin 1) m k :=
    funext fun a => Fin.ext (by match a with | ⟨0, _⟩ => rfl | ⟨1, _⟩ => rfl | ⟨2, _⟩ => rfl)
  rw [e]; rfl

/-- The matrix of inner products, at `(n, m)`: the inner product of source point `n` and target point `m`. -/
theorem v4_read (x0 x1 : (⟨S1x4096x3, .f32⟩ : BufTy).Contents (Elt Ideal)) (n m : Fin 4096) :
    val_main_v4 (F := Ideal) x0 x1 (ix3 (0 : Fin 1) n m) = dot3 (pt x0 n) (pt x1 m) := by
  rw [val_main_v4_apply]
  refine Eq.trans (Finset.sum_congr rfl fun k _ => ?_) (sum3_dot (pt x0 n) (pt x1 m))
  have el : lidx_main_v4 (ix3 (0 : Fin 1) n m) k = ix3 (0 : Fin 1) n k :=
    funext fun a => Fin.ext (by match a with | ⟨0, _⟩ => rfl | ⟨1, _⟩ => rfl | ⟨2, _⟩ => rfl)
  have er : ridx_main_v4 (ix3 (0 : Fin 1) n m) k = ix3 (0 : Fin 1) m k :=
    funext fun a => Fin.ext (by match a with | ⟨0, _⟩ => rfl | ⟨1, _⟩ => rfl | ⟨2, _⟩ => rfl)
  rw [el, er]; rfl

/-- Entry `(n, m)` of the clipped matrix is the clipped squared distance of source point `n` and target point `m`. -/
theorem v14_read (x0 x1 : (⟨S1x4096x3, .f32⟩ : BufTy).Contents (Elt Ideal)) (n m : Fin 4096) :
    val_main_v14 (F := Ideal) x0 x1 (ix3 (0 : Fin 1) n m) = dist (pt x0 n) (pt x1 m) := by
  rw [val_main_v14_apply, val_main_v12_apply, val_main_v9_apply, val_main_v11_apply, val_main_v13_apply,
    val_main_cst_2_apply, val_main_v10_apply, val_main_cst_1_apply, v7_read, v8_read, v4_read]
  rfl

/-- The first min-reduction, read at row `n`: the fold of `min` from the printed +∞ over the row's entries. -/
theorem v15_read (x0 x1 : (⟨S1x4096x3, .f32⟩ : BufTy).Contents (Elt Ideal)) (n : Fin 4096) :
    val_main_v15 (F := Ideal) x0 x1 (ix2 (0 : Fin 1) n)
      = (Finset.univ : Finset (Fin 4096)).fold min inf32 (fun m => val_main_v14 (F := Ideal) x0 x1 (ix3 (0 : Fin 1) n m)) := by
  unfold val_main_v15
  generalize val_main_v14 (F := Ideal) x0 x1 = y
  have hred : S1x4096x4096.Reduces [2] S1x4096 := by decide
  refine (Host.reduce_eq_fold_single (a := 2) (FloatOps.minimumf (F := Ideal) (φ := .f32)) y _
    Facts₀.reducesTo_S1x4096x4096_S1x4096_d2 hred Facts₀.h_S_ (ix2 (0 : Fin 1) n)).trans ?_
  show Finset.fold min inf32 (fun m : Fin 4096 => y (hred.lift (ix2 (0 : Fin 1) n) m)) Finset.univ = _
  refine Finset.fold_congr fun m _ => congrArg y ?_
  exact funext fun a => Fin.ext (by match a with | ⟨0, _⟩ => rfl | ⟨1, _⟩ => rfl | ⟨2, _⟩ => rfl)

/-- The reshape reads row `i 0` of the one batch. -/
theorem idx32_eq (i : S4096.Idx) : idx_main_v32 i = ix2 (0 : Fin 1) (i 0 : Fin 4096) :=
  funext fun a => Fin.ext (by
    match a with
    | ⟨0, _⟩ => rfl
    | ⟨1, _⟩ => exact Nat.mod_eq_of_lt (i 0).isLt)

/-- The reference's first result is the forward nearest-neighbour array. -/
theorem fwd_eq (x0 x1 : (⟨Cert.ReferenceIdeal.S1x4096x3, .f32⟩ : BufTy).Contents (Elt Ideal)) :
    Cert.ReferenceIdeal.Read.val_main_v32 (F := Ideal) x0 x1 = Cert.Chamfer.fwd x0 x1 := by
  funext i
  refine (val_main_v32_apply x0 x1 i).trans ?_
  refine (congrArg (val_main_v15 (F := Ideal) x0 x1) (idx32_eq i)).trans ?_
  refine (v15_read x0 x1 (i 0)).trans ?_
  exact Finset.fold_congr fun m _ => v14_read x0 x1 (i 0) m

/-! ### The backward half: entry `(m, n)` of the transposed distance matrix -/

/-- The broadcast squared norms of the target points, at `(m, n)`: the squared norm of target point `m`. -/
theorem v23_read (x1 : (⟨S1x4096x3, .f32⟩ : BufTy).Contents (Elt Ideal)) (m n : Fin 4096) :
    val_main_v23 (F := Ideal) x1 (ix3 (0 : Fin 1) m n) = sq (pt x1 m) := by
  rw [val_main_v23_apply, val_main_v21_apply, val_main_v17_apply, val_main_cst_4_apply]
  refine Eq.trans (congrArg (_ + ·) (Finset.sum_congr rfl fun k _ => ?_)) (sum3_sq (pt x1 m))
  rw [val_main_v16_apply]
  have e : idx_main_v17 (idx_main_v21 (idx_main_v23 (ix3 (0 : Fin 1) m n))) k = ix3 (0 : Fin 1) m k :=
    funext fun a => Fin.ext (by match a with | ⟨0, _⟩ => rfl | ⟨1, _⟩ => rfl | ⟨2, _⟩ => rfl)
  rw [e]; rfl

/-- The broadcast squared norms of the source points, at `(m, n)`: the squared norm of source point `n`. -/
theorem v24_read (x0 : (⟨S1x4096x3, .f32⟩ : BufTy).Contents (Elt Ideal)) (m n : Fin 4096) :
    val_main_v24 (F := Ideal) x0 (ix3 (0 : Fin 1) m n) = sq (pt x0 n) := by
  rw [val_main_v24_apply, val_main_v22_apply, val_main_v19_apply, val_main_cst_5_apply]
  refine Eq.trans (congrArg (_ + ·) (Finset.sum_congr rfl fun k _ => ?_)) (sum3_sq (pt x0 n))
  rw [val_main_v18_apply]
  have e : idx_main_v19 (idx_main_v22 (idx_main_v24 (ix3 (0 : Fin 1) m n))) k = ix3 (0 : Fin 1) n k :=
    funext fun a => Fin.ext (by match a with | ⟨0, _⟩ => rfl | ⟨1, _⟩ => rfl | ⟨2, _⟩ => rfl)
  rw [e]; rfl

/-- The transposed matrix of inner products, at `(m, n)`: the inner product of target point `m` and source point `n`. -/
theorem v20_read (x0 x1 : (⟨S1x4096x3, .f32⟩ : BufTy).Contents (Elt Ideal)) (m n : Fin 4096) :
    val_main_v20 (F := Ideal) x0 x1 (ix3 (0 : Fin 1) m n) = dot3 (pt x1 m) (pt x0 n) := by
  rw [val_main_v20_apply]
  refine Eq.trans (Finset.sum_congr rfl fun k _ => ?_) (sum3_dot (pt x1 m) (pt x0 n))
  have el : lidx_main_v20 (ix3 (0 : Fin 1) m n) k = ix3 (0 : Fin 1) m k :=
    funext fun a => Fin.ext (by match a with | ⟨0, _⟩ => rfl | ⟨1, _⟩ => rfl | ⟨2, _⟩ => rfl)
  have er : ridx_main_v20 (ix3 (0 : Fin 1) m n) k = ix3 (0 : Fin 1) n k :=
    funext fun a => Fin.ext (by match a with | ⟨0, _⟩ => rfl | ⟨1, _⟩ => rfl | ⟨2, _⟩ => rfl)
  rw [el, er]; rfl

/-- Entry `(m, n)` of the transposed clipped matrix is the clipped squared distance of source point `n` and target
    point `m`: the sum of the squared norms and the inner product are symmetric. -/
theorem v30_read (x0 x1 : (⟨S1x4096x3, .f32⟩ : BufTy).Contents (Elt Ideal)) (m n : Fin 4096) :
    val_main_v30 (F := Ideal) x0 x1 (ix3 (0 : Fin 1) m n) = dist (pt x0 n) (pt x1 m) := by
  rw [val_main_v30_apply, val_main_v28_apply, val_main_v25_apply, val_main_v27_apply, val_main_v29_apply,
    val_main_cst_7_apply, val_main_v26_apply, val_main_cst_6_apply, v23_read, v24_read, v20_read]
  exact dist_swap (pt x0 n) (pt x1 m)

/-- The second min-reduction, read at row `m`: the fold of `min` from the printed +∞ over the row's entries. -/
theorem v31_read (x0 x1 : (⟨S1x4096x3, .f32⟩ : BufTy).Contents (Elt Ideal)) (m : Fin 4096) :
    val_main_v31 (F := Ideal) x0 x1 (ix2 (0 : Fin 1) m)
      = (Finset.univ : Finset (Fin 4096)).fold min inf32 (fun n => val_main_v30 (F := Ideal) x0 x1 (ix3 (0 : Fin 1) m n)) := by
  unfold val_main_v31
  generalize val_main_v30 (F := Ideal) x0 x1 = y
  have hred : S1x4096x4096.Reduces [2] S1x4096 := by decide
  refine (Host.reduce_eq_fold_single (a := 2) (FloatOps.minimumf (F := Ideal) (φ := .f32)) y _
    Facts₀.reducesTo_S1x4096x4096_S1x4096_d2 hred Facts₀.h_S_ (ix2 (0 : Fin 1) m)).trans ?_
  show Finset.fold min inf32 (fun n : Fin 4096 => y (hred.lift (ix2 (0 : Fin 1) m) n)) Finset.univ = _
  refine Finset.fold_congr fun n _ => congrArg y ?_
  exact funext fun a => Fin.ext (by match a with | ⟨0, _⟩ => rfl | ⟨1, _⟩ => rfl | ⟨2, _⟩ => rfl)

/-- The second reshape reads row `i 0` of the one batch. -/
theorem idx33_eq (i : S4096.Idx) : idx_main_v33 i = ix2 (0 : Fin 1) (i 0 : Fin 4096) :=
  funext fun a => Fin.ext (by
    match a with
    | ⟨0, _⟩ => rfl
    | ⟨1, _⟩ => exact Nat.mod_eq_of_lt (i 0).isLt)

/-- The reference's second result is the backward nearest-neighbour array. -/
theorem bwd_eq (x0 x1 : (⟨Cert.ReferenceIdeal.S1x4096x3, .f32⟩ : BufTy).Contents (Elt Ideal)) :
    Cert.ReferenceIdeal.Read.val_main_v33 (F := Ideal) x0 x1 = Cert.Chamfer.bwd x0 x1 := by
  funext i
  refine (val_main_v33_apply x0 x1 i).trans ?_
  refine (congrArg (val_main_v31 (F := Ideal) x0 x1) (idx33_eq i)).trans ?_
  refine (v31_read x0 x1 (i 0)).trans ?_
  exact Finset.fold_congr fun n _ => v30_read x0 x1 (i 0) n

end Cert.Chamfer.Ref

end
-- ==== Proof.lean ====
/-
  The certificate of the chamfer-distance kernel against its reference: for two clouds of 4096 points in three
  dimensions, the nearest-neighbour squared distances in both directions.
  Both idealized programs compute, over the extended reals, `fwd[n] = min_m d(n, m)` and `bwd[m] = min_n d(n, m)`
  with `d(n, m) = max ((|aₙ|² + |bₘ|²) − 2·⟨aₙ, bₘ⟩) 0`. The kernel forms the distances block by block (512 source
  points against the whole target cloud per grid point), takes row minima for the forward result and accumulates
  column minima across the eight grid points for the backward result; the reference takes each direction's minimum
  over one whole 4096 × 4096 matrix. The two agree because a fold of `min` over 4096 points is the minimum of the
  folds over its eight blocks, a sum of three terms is its left-to-right sum, `0 + x = x`, and `+` and `·` commute:
  no law used needs the inputs finite. The frames: each kernel program's by running its body at every grid point
  under the pipeline's launch theorem, the reference's from its run. The kernel's idealization dropped two
  round trips through the narrower float format, which are the identity on the extended reals.
-/
import proofs.«167455_g14620068675781_cont_week2b_1446_3_alg».proof.Defs
import proofs.«167455_g14620068675781_cont_week2b_1446_3_alg».proof.Proof.Gen.Kernel
import proofs.«167455_g14620068675781_cont_week2b_1446_3_alg».proof.Proof.Gen.KernelIdeal
import proofs.«167455_g14620068675781_cont_week2b_1446_3_alg».proof.Proof.Gen.ReferenceIdeal
import proofs.«167455_g14620068675781_cont_week2b_1446_3_alg».proof.Proof.Gen.Pre_finite_inputs
import proofs.«167455_g14620068675781_cont_week2b_1446_3_alg».proof.Proof.BodyBits
import proofs.«167455_g14620068675781_cont_week2b_1446_3_alg».proof.Proof.BodyIdeal
import proofs.«167455_g14620068675781_cont_week2b_1446_3_alg».proof.Proof.Final
import proofs.«167455_g14620068675781_cont_week2b_1446_3_alg».proof.Proof.RefRead
import Idealize.ShloMosaic.Adequacy
import Idealize.ShloMosaic.Init

noncomputable section

namespace Cert.Proof

open Idealize.ShloMosaic Idealize.ShloMosaic.TcCoe Idealize.SL.Sem

/-- The printed kernel terminates without a fault and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- So does the reference: its run with the results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The two rewrites of the idealization: narrowing to the shorter format and widening back is the identity on the
    extended reals, at both shapes. -/
theorem preserves : Cert.preserves_Kernel_KernelIdeal :=
  ⟨IdealRules.truncf_extf.statement _ .f32 .bf16, IdealRules.truncf_extf.statement _ .f32 .bf16⟩

/-- From memories agreeing on the two clouds both idealized programs end with the forward and the backward function
    of the clouds in their two results. -/
theorem algebraic : Cert.algebraic_KernelIdeal_ReferenceIdeal := by
  intro m ρ m' ρ' _ hagree
  refine ⟨fun c => Cert.Chamfer.fwd (Cert.KernelIdeal.Final.src m c) (Cert.KernelIdeal.Final.tgt m c),
    fun c => Cert.Chamfer.bwd (Cert.KernelIdeal.Final.src m c) (Cert.KernelIdeal.Final.tgt m c),
    Cert.KernelIdeal.Final.run m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · rw [Cert.ReferenceIdeal.Read.val_main_v32_eq, Cert.Chamfer.Ref.fwd_eq, (hagree c).1, (hagree c).2]
  · rw [Cert.ReferenceIdeal.Read.val_main_v33_eq, Cert.Chamfer.Ref.bwd_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
